-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x900x92 : Shape := ⟨3, ![16, 900, 92]⟩
abbrev S16x900x4 : Shape := ⟨3, ![16, 900, 4]⟩
abbrev S1600 : Shape := ⟨1, ![1600]⟩
abbrev S1600x4 : Shape := ⟨2, ![1600, 4]⟩
abbrev S_ : Shape := ⟨0, ![]⟩
abbrev S16x900x2 : Shape := ⟨3, ![16, 900, 2]⟩
abbrev S1600x2 : Shape := ⟨2, ![1600, 2]⟩

class Facts : Prop where
  bcast_S_S16x900x92 : S_.BroadcastsInDim S16x900x92 (![] : Fin 0 → Fin S16x900x92.rank)
  reducesTo_S16x900x92_S_d0_1_2 : S16x900x92.ReducesTo [0, 1, 2] S_
  h_S_ : 0 < S_.numel
  bcast_S_S16x900x4 : S_.BroadcastsInDim S16x900x4 (![] : Fin 0 → Fin S16x900x4.rank)
  reducesTo_S16x900x4_S_d0_1_2 : S16x900x4.ReducesTo [0, 1, 2] S_
  bcast_S_S1600x4 : S_.BroadcastsInDim S1600x4 (![] : Fin 0 → Fin S1600x4.rank)
  reducesTo_S1600x4_S_d0_1 : S1600x4.ReducesTo [0, 1] S_
  bcast_S_S1600 : S_.BroadcastsInDim S1600 (![] : Fin 0 → Fin S1600.rank)
  reducesTo_S1600_S_d0 : S1600.ReducesTo [0] S_
  slices_S16x900x4_S16x900x2_0_0_2 : S16x900x4.Slices ![0, 0, 2] S16x900x2
  bcast_S_S16x900x2 : S_.BroadcastsInDim S16x900x2 (![] : Fin 0 → Fin S16x900x2.rank)
  reducesTo_S16x900x2_S_d0_1_2 : S16x900x2.ReducesTo [0, 1, 2] S_
  slices_S1600x4_S1600x2_0_2 : S1600x4.Slices ![0, 2] S1600x2
  bcast_S_S1600x2 : S_.BroadcastsInDim S1600x2 (![] : Fin 0 → Fin S1600x2.rank)
  reducesTo_S1600x2_S_d0_1 : S1600x2.ReducesTo [0, 1] S_

variable [Facts]

def fn_part1 {F : FTy → Type} [FloatOps F] (main_arg1 : FVec F S16x900x4 .f32) (main_arg2 : IVec S1600 32) (main_arg3 : FVec F S1600x4 .f32) (main_v13 : IVec S_ 1) (main_v15 : IVec S1600 1) (main_c_5 : IVec S_ 1) : IVec S_ 1 :=
  let main_v16 : IVec S_ 1 := (fun x v => Host.reduce IntOp.andi x v reducesTo_S1600_S_d0 h_S_) main_v15 main_c_5
  let main_v17 : IVec S_ 1 := andi main_v13 main_v16
  let main_c_6 : IVec S_ 32 := constantI S_ 32 92#32
  let main_v18 : IVec S1600 32 := broadcastInDim S1600 ![] bcast_S_S1600 main_c_6
  let main_v19 : IVec S1600 1 := cmpi .slt main_arg2 main_v18
  let main_c_7 : IVec S_ 1 := constantI S_ 1 1#1
  let main_v20 : IVec S_ 1 := (fun x v => Host.reduce IntOp.andi x v reducesTo_S1600_S_d0 h_S_) main_v19 main_c_7
  let main_v21 : IVec S_ 1 := andi main_v17 main_v20
  let main_v22 : FVec F S16x900x2 .f32 := (extractStridedSlice S16x900x2 ![0, 0, 2] · slices_S16x900x4_S16x900x2_0_0_2) main_arg1
  let main_cst_8 : FVec F S_ .f32 := constant S_ .f32 0x00000000#32
  let main_v23 : FVec F S16x900x2 .f32 := broadcastInDim S16x900x2 ![] bcast_S_S16x900x2 main_cst_8
  let main_v24 : IVec S16x900x2 1 := cmpf .oge main_v22 main_v23
  let main_c_9 : IVec S_ 1 := constantI S_ 1 1#1
  let main_v25 : IVec S_ 1 := (fun x v => Host.reduce IntOp.andi x v reducesTo_S16x900x2_S_d0_1_2 h_S_) main_v24 main_c_9
  let main_v26 : IVec S_ 1 := andi main_v21 main_v25
  let main_v27 : FVec F S1600x2 .f32 := (extractStridedSlice S1600x2 ![0, 2] · slices_S1600x4_S1600x2_0_2) main_arg3
  let main_cst_10 : FVec F S_ .f32 := constant S_ .f32 0x00000000#32
  let main_v28 : FVec F S1600x2 .f32 := broadcastInDim S1600x2 ![] bcast_S_S1600x2 main_cst_10
  let main_v29 : IVec S1600x2 1 := cmpf .oge main_v27 main_v28
  let main_c_11 : IVec S_ 1 := constantI S_ 1 1#1
  let main_v30 : IVec S_ 1 := (fun x v => Host.reduce IntOp.andi x v reducesTo_S1600x2_S_d0_1 h_S_) main_v29 main_c_11
  let main_v31 : IVec S_ 1 := andi main_v26 main_v30
  main_v31

def fn {F : FTy → Type} [FloatOps F] (main_arg0 : FVec F S16x900x92 .f32) (main_arg1 : FVec F S16x900x4 .f32) (main_arg2 : IVec S1600 32) (main_arg3 : FVec F S1600x4 .f32) : IVec S_ 1 :=
  let main_v0 : FVec F S16x900x92 .f32 := Host.absf main_arg0
  let main_cst : FVec F S_ .f32 := constant S_ .f32 0x7F800000#32
  let main_v1 : FVec F S16x900x92 .f32 := broadcastInDim S16x900x92 ![] bcast_S_S16x900x92 main_cst
  let main_v2 : IVec S16x900x92 1 := cmpf .olt main_v0 main_v1
  let main_c : IVec S_ 1 := constantI S_ 1 1#1
  let main_v3 : IVec S_ 1 := (fun x v => Host.reduce IntOp.andi x v reducesTo_S16x900x92_S_d0_1_2 h_S_) main_v2 main_c
  let main_v4 : FVec F S16x900x4 .f32 := Host.absf main_arg1
  let main_cst_0 : FVec F S_ .f32 := constant S_ .f32 0x7F800000#32
  let main_v5 : FVec F S16x900x4 .f32 := broadcastInDim S16x900x4 ![] bcast_S_S16x900x4 main_cst_0
  let main_v6 : IVec S16x900x4 1 := cmpf .olt main_v4 main_v5
  let main_c_1 : IVec S_ 1 := constantI S_ 1 1#1
  let main_v7 : IVec S_ 1 := (fun x v => Host.reduce IntOp.andi x v reducesTo_S16x900x4_S_d0_1_2 h_S_) main_v6 main_c_1
  let main_v8 : IVec S_ 1 := andi main_v3 main_v7
  let main_v9 : FVec F S1600x4 .f32 := Host.absf main_arg3
  let main_cst_2 : FVec F S_ .f32 := constant S_ .f32 0x7F800000#32
  let main_v10 : FVec F S1600x4 .f32 := broadcastInDim S1600x4 ![] bcast_S_S1600x4 main_cst_2
  let main_v11 : IVec S1600x4 1 := cmpf .olt main_v9 main_v10
  let main_c_3 : IVec S_ 1 := constantI S_ 1 1#1
  let main_v12 : IVec S_ 1 := (fun x v => Host.reduce IntOp.andi x v reducesTo_S1600x4_S_d0_1 h_S_) main_v11 main_c_3
  let main_v13 : IVec S_ 1 := andi main_v8 main_v12
  let main_c_4 : IVec S_ 32 := constantI S_ 32 0#32
  let main_v14 : IVec S1600 32 := broadcastInDim S1600 ![] bcast_S_S1600 main_c_4
  let main_v15 : IVec S1600 1 := cmpi .sge main_arg2 main_v14
  let main_c_5 : IVec S_ 1 := constantI S_ 1 1#1
  fn_part1 (F := F) main_arg1 main_arg2 main_arg3 main_v13 main_v15 main_c_5
-- ==== Kernel.lean ====
abbrev S16x900x92 : Shape := ⟨3, ![16, 900, 92]⟩
abbrev S16x900x4 : Shape := ⟨3, ![16, 900, 4]⟩
abbrev S1600 : Shape := ⟨1, ![1600]⟩
abbrev S1600x4 : Shape := ⟨2, ![1600, 4]⟩
abbrev S4x1600 : Shape := ⟨2, ![4, 1600]⟩
abbrev S900x16x92 : Shape := ⟨3, ![900, 16, 92]⟩
abbrev S900x16x4 : Shape := ⟨3, ![900, 16, 4]⟩
abbrev S900x16x1600 : Shape := ⟨3, ![900, 16, 1600]⟩
abbrev S36x16x92 : Shape := ⟨3, ![36, 16, 92]⟩
abbrev S36x16x4 : Shape := ⟨3, ![36, 16, 4]⟩
abbrev S36x16x1600 : Shape := ⟨3, ![36, 16, 1600]⟩
abbrev S576x92 : Shape := ⟨2, ![576, 92]⟩
abbrev S576 : Shape := ⟨1, ![576]⟩
abbrev S576x1 : Shape := ⟨2, ![576, 1]⟩
abbrev S1x1600 : Shape := ⟨2, ![1, 1600]⟩
abbrev S92x1600 : Shape := ⟨2, ![92, 1600]⟩
abbrev S576x1600 : Shape := ⟨2, ![576, 1600]⟩
abbrev S576x4 : Shape := ⟨2, ![576, 4]⟩
abbrev S16x900x1600 : Shape := ⟨3, ![16, 900, 1600]⟩

abbrev nBuf : Space → Nat
  | .hbm => 9
  | .vmem => 8
  | .smem => 0
  | _ => 0

abbrev bufTy : (tb : Table) → Fin (tcTables nBuf tb) → BufTy
  | .hbm, ⟨0, _⟩ => ⟨S16x900x92, .f32⟩
  | .hbm, ⟨1, _⟩ => ⟨S16x900x4, .f32⟩
  | .hbm, ⟨2, _⟩ => ⟨S1600, .i32⟩
  | .hbm, ⟨3, _⟩ => ⟨S1600x4, .f32⟩
  | .hbm, ⟨4, _⟩ => ⟨S4x1600, .f32⟩
  | .hbm, ⟨5, _⟩ => ⟨S900x16x92, .f32⟩
  | .hbm, ⟨6, _⟩ => ⟨S900x16x4, .f32⟩
  | .hbm, ⟨7, _⟩ => ⟨S900x16x1600, .f32⟩
  | .hbm, ⟨8, _⟩ => ⟨S16x900x1600, .f32⟩
  | .local _ .vmem, ⟨0, _⟩ => ⟨S36x16x92, .f32⟩
  | .local _ .vmem, ⟨1, _⟩ => ⟨S36x16x92, .f32⟩
  | .local _ .vmem, ⟨2, _⟩ => ⟨S36x16x4, .f32⟩
  | .local _ .vmem, ⟨3, _⟩ => ⟨S36x16x4, .f32⟩
  | .local _ .vmem, ⟨4, _⟩ => ⟨S1600, .i32⟩
  | .local _ .vmem, ⟨5, _⟩ => ⟨S4x1600, .f32⟩
  | .local _ .vmem, ⟨6, _⟩ => ⟨S36x16x1600, .f32⟩
  | .local _ .vmem, ⟨7, _⟩ => ⟨S36x16x1600, .f32⟩
  | _, _ => ⟨S16x900x92, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S36x16x92 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S36x16x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1600 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1600 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S36x16x1600 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S1600x4_S4x1600_1_0 : S1600x4.Transposes [1, 0] S4x1600
  transposes_S16x900x92_S900x16x92_1_0_2 : S16x900x92.Transposes [1, 0, 2] S900x16x92
  transposes_S16x900x4_S900x16x4_1_0_2 : S16x900x4.Transposes [1, 0, 2] S900x16x4
  inb_S36x16x92_S36x16x92_0_0_0 : ∀ a, (![0, 0, 0] : Fin 3 → Nat) a + S36x16x92.size a ≤ S36x16x92.size a
  h_S36x16x92 : 0 < S36x16x92.numel
  shapeCasts_S36x16x92_S36x16x92 : S36x16x92.ShapeCasts S36x16x92
  shapeCasts_S36x16x92_S576x92 : S36x16x92.ShapeCasts S576x92
  reduces_S576x92_S576 : S576x92.Reduces [1] S576
  shapeCasts_S576_S576x1 : S576.ShapeCasts S576x1
  broadcasts_S576x1_S576x92 : S576x1.Broadcasts S576x92
  inb_S1600_S1600_0 : ∀ a, (![0] : Fin 1 → Nat) a + S1600.size a ≤ S1600.size a
  h_S1600 : 0 < S1600.numel
  shapeCasts_S1600_S1x1600 : S1600.ShapeCasts S1x1600
  iota_S92x1600_d0_w32 : S92x1600.Iotas .tc 32 [0]
  broadcasts_S1x1600_S92x1600 : S1x1600.Broadcasts S92x1600
  inb_S36x16x4_S36x16x4_0_0_0 : ∀ a, (![0, 0, 0] : Fin 3 → Nat) a + S36x16x4.size a ≤ S36x16x4.size a
  h_S36x16x4 : 0 < S36x16x4.numel
  shapeCasts_S36x16x4_S36x16x4 : S36x16x4.ShapeCasts S36x16x4
  shapeCasts_S36x16x4_S576x4 : S36x16x4.ShapeCasts S576x4
  bitsLt_bf16_f32 : FTy.bits .bf16 < FTy.bits .f32
  slices_S576x4_o0_0_S576x1 : S576x4.Slices ![0, 0] S576x1
  slices_S576x4_o0_1_S576x1 : S576x4.Slices ![0, 1] S576x1
  slices_S576x4_o0_2_S576x1 : S576x4.Slices ![0, 2] S576x1
  slices_S576x4_o0_3_S576x1 : S576x4.Slices ![0, 3] S576x1
  inb_S4x1600_S4x1600_0_0 : ∀ a, (![0, 0] : Fin 2 → Nat) a + S4x1600.size a ≤ S4x1600.size a
  h_S4x1600 : 0 < S4x1600.numel
  shapeCasts_S4x1600_S4x1600 : S4x1600.ShapeCasts S4x1600
  slices_S4x1600_o0_0_S1x1600 : S4x1600.Slices ![0, 0] S1x1600
  slices_S4x1600_o1_0_S1x1600 : S4x1600.Slices ![1, 0] S1x1600
  slices_S4x1600_o2_0_S1x1600 : S4x1600.Slices ![2, 0] S1x1600
  slices_S4x1600_o3_0_S1x1600 : S4x1600.Slices ![3, 0] S1x1600
  broadcasts_S576x1_S576x1600 : S576x1.Broadcasts S576x1600
  broadcasts_S1x1600_S576x1600 : S1x1600.Broadcasts S576x1600
  shapeCasts_S576x1600_S36x16x1600 : S576x1600.ShapeCasts S36x16x1600
  inb_S36x16x1600_S36x16x1600_0_0_0 : ∀ a, (![0, 0, 0] : Fin 3 → Nat) a + S36x16x1600.size a ≤ S36x16x1600.size a
  h_S36x16x1600 : 0 < S36x16x1600.numel
  transposes_S900x16x1600_S16x900x1600_1_0_2 : S900x16x1600.Transposes [1, 0, 2] S16x900x1600
  dot_S576x92_S92x1600_S576x1600_1_0_0_1_n_n_wf : DotDims.WF S576x92 S92x1600 S576x1600 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S36x16x92.size a ≤ S900x16x92.size a
  hwx0_0 : ∀ i : grid0.Coords, EltTy.bits .f32 = 32 ∨ (Rect.block (s := S900x16x92) S36x16x92.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S36x16x4.size a ≤ S900x16x4.size a
  hwx0_1 : ∀ i : grid0.Coords, EltTy.bits .f32 = 32 ∨ (Rect.block (s := S900x16x4) S36x16x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1600.size a ≤ S1600.size a
  hwx0_2 : ∀ i : grid0.Coords, EltTy.bits .i32 = 32 ∨ (Rect.block (s := S1600) S1600.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1600.size a ≤ S4x1600.size a
  hwx0_3 : ∀ i : grid0.Coords, EltTy.bits .f32 = 32 ∨ (Rect.block (s := S4x1600) S4x1600.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S36x16x1600.size a ≤ S900x16x1600.size a
  hwx0_4 : ∀ i : grid0.Coords, EltTy.bits .f32 = 32 ∨ (Rect.block (s := S900x16x1600) S36x16x1600.size (cc0_transform_4 i) (hinb0_4 i)).WholeWords (EltTy.packing .f32)

variable [Facts₀]

def dot_S576x92_S92x1600_S576x1600_1_0_0_1_n_n : DotDims S576x92 S92x1600 S576x1600 where
  lhsContracting := [1]
  rhsContracting := [0]
  lhsNonContracting := [0]
  rhsNonContracting := [1]
  lhsBatch := []
  rhsBatch := []
  wf := dot_S576x92_S92x1600_S576x1600_1_0_0_1_n_n_wf

abbrev win0_0 : Pipeline.Window sig grid0 :=
  Pipeline.Window.ofSpec (Memref.whole main_v1) S36x16x92.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S36x16x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1600.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4x1600.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S36x16x1600.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x900x92 : Shape := ⟨3, ![16, 900, 92]⟩
abbrev S16x900x4 : Shape := ⟨3, ![16, 900, 4]⟩
abbrev S1600 : Shape := ⟨1, ![1600]⟩
abbrev S1600x4 : Shape := ⟨2, ![1600, 4]⟩
abbrev S14400x92 : Shape := ⟨2, ![14400, 92]⟩
abbrev S_ : Shape := ⟨0, ![]⟩
abbrev S14400 : Shape := ⟨1, ![14400]⟩
abbrev S14400x1 : Shape := ⟨2, ![14400, 1]⟩
abbrev S14400x4 : Shape := ⟨2, ![14400, 4]⟩
abbrev S1600x1 : Shape := ⟨2, ![1600, 1]⟩
abbrev S14400x1600 : Shape := ⟨2, ![14400, 1600]⟩
abbrev S14400x1x4 : Shape := ⟨3, ![14400, 1, 4]⟩
abbrev S1x1600x4 : Shape := ⟨3, ![1, 1600, 4]⟩
abbrev S14400x1600x4 : Shape := ⟨3, ![14400, 1600, 4]⟩
abbrev S14400x2 : Shape := ⟨2, ![14400, 2]⟩
abbrev S14400x1x2 : Shape := ⟨3, ![14400, 1, 2]⟩
abbrev S1600x2 : Shape := ⟨2, ![1600, 2]⟩
abbrev S1x1600x2 : Shape := ⟨3, ![1, 1600, 2]⟩
abbrev S14400x1600x2 : Shape := ⟨3, ![14400, 1600, 2]⟩
abbrev S14400x1600x1 : Shape := ⟨3, ![14400, 1600, 1]⟩
abbrev S1x1600 : Shape := ⟨2, ![1, 1600]⟩
abbrev S16x900x1600 : Shape := ⟨3, ![16, 900, 1600]⟩

abbrev nBuf : Space → Nat
  | .hbm => 189
  | .vmem => 0
  | .smem => 0
  | _ => 0

abbrev hbmTy0_0 (i : Nat) : BufTy := match i % 128 with
  | 0 => ⟨S16x900x92, .f32⟩
  | 1 => ⟨S16x900x4, .f32⟩
  | 2 => ⟨S1600, .i32⟩
  | 3 => ⟨S1600x4, .f32⟩
  | 4 => ⟨S14400x92, .f32⟩
  | 5 => ⟨S_, .f32⟩
  | 6 => ⟨S14400, .f32⟩
  | 7 => ⟨S_, .f32⟩
  | 8 => ⟨S14400, .f32⟩
  | 9 => ⟨S14400, .f32⟩
  | 10 => ⟨S14400x1, .f32⟩
  | 11 => ⟨S14400x92, .f32⟩
  | 12 => ⟨S14400x92, .f32⟩
  | 13 => ⟨S14400x92, .f32⟩
  | 14 => ⟨S_, .f32⟩
  | 15 => ⟨S14400, .f32⟩
  | 16 => ⟨S14400x1, .f32⟩
  | 17 => ⟨S14400x92, .f32⟩
  | 18 => ⟨S14400x92, .f32⟩
  | 19 => ⟨S14400x4, .f32⟩
  | 20 => ⟨S_, .i32⟩
  | 21 => ⟨S1600, .i32⟩
  | 22 => ⟨S1600, .i1⟩
  | 23 => ⟨S_, .i32⟩
  | 24 => ⟨S1600, .i32⟩
  | 25 => ⟨S1600, .i32⟩
  | 26 => ⟨S1600, .i32⟩
  | 27 => ⟨S1600x1, .i32⟩
  | 28 => ⟨S14400x1600, .f32⟩
  | 29 => ⟨S14400x1600, .f32⟩
  | 30 => ⟨S14400x1x4, .f32⟩
  | 31 => ⟨S1x1600x4, .f32⟩
  | 32 => ⟨S14400x1600x4, .f32⟩
  | 33 => ⟨S14400x1600x4, .f32⟩
  | 34 => ⟨S14400x1600x4, .f32⟩
  | 35 => ⟨S14400x1600x4, .f32⟩
  | 36 => ⟨S_, .f32⟩
  | 37 => ⟨S14400x1600, .f32⟩
  | 38 => ⟨S14400x1, .f32⟩
  | 39 => ⟨S14400, .f32⟩
  | 40 => ⟨S14400x1, .f32⟩
  | 41 => ⟨S14400, .f32⟩
  | 42 => ⟨S14400x1, .f32⟩
  | 43 => ⟨S14400, .f32⟩
  | 44 => ⟨S14400x1, .f32⟩
  | 45 => ⟨S14400, .f32⟩
  | 46 => ⟨S_, .f32⟩
  | 47 => ⟨S14400, .f32⟩
  | 48 => ⟨S14400, .f32⟩
  | 49 => ⟨S14400, .f32⟩
  | 50 => ⟨S_, .f32⟩
  | 51 => ⟨S14400, .f32⟩
  | 52 => ⟨S14400, .f32⟩
  | 53 => ⟨S14400, .f32⟩
  | 54 => ⟨S_, .f32⟩
  | 55 => ⟨S14400, .f32⟩
  | 56 => ⟨S14400, .f32⟩
  | 57 => ⟨S14400, .f32⟩
  | 58 => ⟨S_, .f32⟩
  | 59 => ⟨S14400, .f32⟩
  | 60 => ⟨S14400, .f32⟩
  | 61 => ⟨S14400, .f32⟩
  | 62 => ⟨S14400x1, .f32⟩
  | 63 => ⟨S14400x1, .f32⟩
  | 64 => ⟨S14400x1, .f32⟩
  | 65 => ⟨S14400x1, .f32⟩
  | 66 => ⟨S14400x4, .f32⟩
  | 67 => ⟨S1600x1, .f32⟩
  | 68 => ⟨S1600, .f32⟩
  | 69 => ⟨S1600x1, .f32⟩
  | 70 => ⟨S1600, .f32⟩
  | 71 => ⟨S1600x1, .f32⟩
  | 72 => ⟨S1600, .f32⟩
  | 73 => ⟨S1600x1, .f32⟩
  | 74 => ⟨S1600, .f32⟩
  | 75 => ⟨S_, .f32⟩
  | 76 => ⟨S1600, .f32⟩
  | 77 => ⟨S1600, .f32⟩
  | 78 => ⟨S1600, .f32⟩
  | 79 => ⟨S_, .f32⟩
  | 80 => ⟨S1600, .f32⟩
  | 81 => ⟨S1600, .f32⟩
  | 82 => ⟨S1600, .f32⟩
  | 83 => ⟨S_, .f32⟩
  | 84 => ⟨S1600, .f32⟩
  | 85 => ⟨S1600, .f32⟩
  | 86 => ⟨S1600, .f32⟩
  | 87 => ⟨S_, .f32⟩
  | 88 => ⟨S1600, .f32⟩
  | 89 => ⟨S1600, .f32⟩
  | 90 => ⟨S1600, .f32⟩
  | 91 => ⟨S1600x1, .f32⟩
  | 92 => ⟨S1600x1, .f32⟩
  | 93 => ⟨S1600x1, .f32⟩
  | 94 => ⟨S1600x1, .f32⟩
  | 95 => ⟨S1600x4, .f32⟩
  | 96 => ⟨S14400x1, .f32⟩
  | 97 => ⟨S14400, .f32⟩
  | 98 => ⟨S14400x1, .f32⟩
  | 99 => ⟨S14400, .f32⟩
  | 100 => ⟨S14400, .f32⟩
  | 101 => ⟨S14400x1, .f32⟩
  | 102 => ⟨S14400, .f32⟩
  | 103 => ⟨S14400x1, .f32⟩
  | 104 => ⟨S14400, .f32⟩
  | 105 => ⟨S14400, .f32⟩
  | 106 => ⟨S14400, .f32⟩
  | 107 => ⟨S1600x1, .f32⟩
  | 108 => ⟨S1600, .f32⟩
  | 109 => ⟨S1600x1, .f32⟩
  | 110 => ⟨S1600, .f32⟩
  | 111 => ⟨S1600, .f32⟩
  | 112 => ⟨S1600x1, .f32⟩
  | 113 => ⟨S1600, .f32⟩
  | 114 => ⟨S1600x1, .f32⟩
  | 115 => ⟨S1600, .f32⟩
  | 116 => ⟨S1600, .f32⟩
  | 117 => ⟨S1600, .f32⟩
  | 118 => ⟨S14400x2, .f32⟩
  | 119 => ⟨S14400x1x2, .f32⟩
  | 120 => ⟨S1600x2, .f32⟩
  | 121 => ⟨S1x1600x2, .f32⟩
  | 122 => ⟨S14400x1600x2, .f32⟩
  | 123 => ⟨S14400x1600x2, .f32⟩
  | 124 => ⟨S14400x1600x2, .f32⟩
  | 125 => ⟨S14400x2, .f32⟩
  | 126 => ⟨S14400x1x2, .f32⟩
  | 127 => ⟨S1600x2, .f32⟩
  | _ => ⟨S16x900x92, .f32⟩

abbrev hbmTy0_1 (i : Nat) : BufTy := match i % 128 with
  | 0 => ⟨S1x1600x2, .f32⟩
  | 1 => ⟨S14400x1600x2, .f32⟩
  | 2 => ⟨S14400x1600x2, .f32⟩
  | 3 => ⟨S14400x1600x2, .f32⟩
  | 4 => ⟨S14400x1600x2, .f32⟩
  | 5 => ⟨S_, .f32⟩
  | 6 => ⟨S_, .f32⟩
  | 7 => ⟨S14400x1600x2, .f32⟩
  | 8 => ⟨S14400x1600x2, .f32⟩
  | 9 => ⟨S14400x1600x1, .f32⟩
  | 10 => ⟨S14400x1600, .f32⟩
  | 11 => ⟨S14400x1600x1, .f32⟩
  | 12 => ⟨S14400x1600, .f32⟩
  | 13 => ⟨S14400x1600, .f32⟩
  | 14 => ⟨S14400x1, .f32⟩
  | 15 => ⟨S1x1600, .f32⟩
  | 16 => ⟨S14400x1600, .f32⟩
  | 17 => ⟨S14400x1600, .f32⟩
  | 18 => ⟨S14400x1600, .f32⟩
  | 19 => ⟨S14400x1600, .f32⟩
  | 20 => ⟨S14400x1600, .f32⟩
  | 21 => ⟨S14400x2, .f32⟩
  | 22 => ⟨S14400x1x2, .f32⟩
  | 23 => ⟨S1600x2, .f32⟩
  | 24 => ⟨S1x1600x2, .f32⟩
  | 25 => ⟨S14400x1600x2, .f32⟩
  | 26 => ⟨S14400x1600x2, .f32⟩
  | 27 => ⟨S14400x1600x2, .f32⟩
  | 28 => ⟨S14400x2, .f32⟩
  | 29 => ⟨S14400x1x2, .f32⟩
  | 30 => ⟨S1600x2, .f32⟩
  | 31 => ⟨S1x1600x2, .f32⟩
  | 32 => ⟨S14400x1600x2, .f32⟩
  | 33 => ⟨S14400x1600x2, .f32⟩
  | 34 => ⟨S14400x1600x2, .f32⟩
  | 35 => ⟨S14400x1600x2, .f32⟩
  | 36 => ⟨S_, .f32⟩
  | 37 => ⟨S_, .f32⟩
  | 38 => ⟨S14400x1600x2, .f32⟩
  | 39 => ⟨S14400x1600x2, .f32⟩
  | 40 => ⟨S14400x1600x1, .f32⟩
  | 41 => ⟨S14400x1600, .f32⟩
  | 42 => ⟨S14400x1600x1, .f32⟩
  | 43 => ⟨S14400x1600, .f32⟩
  | 44 => ⟨S14400x1600, .f32⟩
  | 45 => ⟨S14400x1600, .f32⟩
  | 46 => ⟨S14400x1600, .f32⟩
  | 47 => ⟨S14400x1600, .f32⟩
  | 48 => ⟨S14400x1600, .f32⟩
  | 49 => ⟨S_, .f32⟩
  | 50 => ⟨S14400x1600, .f32⟩
  | 51 => ⟨S14400x1600, .f32⟩
  | 52 => ⟨S_, .f32⟩
  | 53 => ⟨S14400x1600, .f32⟩
  | 54 => ⟨S14400x1600, .f32⟩
  | 55 => ⟨S14400x1600, .f32⟩
  | 56 => ⟨S_, .f32⟩
  | 57 => ⟨S14400x1600, .f32⟩
  | 58 => ⟨S14400x1600, .f32⟩
  | 59 => ⟨S14400x1600, .f32⟩
  | 60 => ⟨S16x900x1600, .f32⟩
  | _ => ⟨S16x900x92, .f32⟩

abbrev hbmTy (i : Nat) : BufTy := match i / 128 with
  | 0 => hbmTy0_0 i
  | 1 => hbmTy0_1 i
  | _ => ⟨S16x900x92, .f32⟩

abbrev bufTy : (tb : Table) → Fin (tcTables nBuf tb) → BufTy
  | .hbm, ⟨i, _⟩ => hbmTy i
  | _, _ => ⟨S16x900x92, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_8 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_9 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_10 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_11 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_cst_12 : Ref sig .tc := ⟨.hbm, 133, rfl⟩
abbrev main_call0_v0 : Ref sig .tc := ⟨.hbm, 134, rfl⟩
abbrev main_call0_v1 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_cst_13 : Ref sig .tc := ⟨.hbm, 164, rfl⟩
abbrev main_call1_v0 : Ref sig .tc := ⟨.hbm, 165, rfl⟩
abbrev main_call1_v1 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_cst_14 : Ref sig .tc := ⟨.hbm, 177, rfl⟩
abbrev main_v153 : Ref sig .tc := ⟨.hbm, 178, rfl⟩
abbrev main_v154 : Ref sig .tc := ⟨.hbm, 179, rfl⟩
abbrev main_cst_15 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_cst_16 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩

abbrev nD : Nat := 1
abbrev τ : Topo := Topo.v7x

variable {F : FTy → Type} [FloatOps F]

class Facts₀ : Prop where
  shapeCasts_S16x900x92_S14400x92 : S16x900x92.ShapeCasts S14400x92
  reducesTo_S14400x92_S14400_d1 : S14400x92.ReducesTo [1] S14400
  h_S_ : 0 < S_.numel
  bcast_S_S14400 : S_.BroadcastsInDim S14400 (![] : Fin 0 → Fin S14400.rank)
  bcast_S14400_S14400x1_0 : S14400.BroadcastsInDim S14400x1 (![0] : Fin 1 → Fin S14400x1.rank)
  bcast_S14400x1_S14400x92_0_1 : S14400x1.BroadcastsInDim S14400x92 (![0, 1] : Fin 2 → Fin S14400x92.rank)
  shapeCasts_S16x900x4_S14400x4 : S16x900x4.ShapeCasts S14400x4
  bcast_S_S1600 : S_.BroadcastsInDim S1600 (![] : Fin 0 → Fin S1600.rank)
  bcast_S1600_S1600x1_0 : S1600.BroadcastsInDim S1600x1 (![0] : Fin 1 → Fin S1600x1.rank)
  bcast_S14400x4_S14400x1x4_0_2 : S14400x4.BroadcastsInDim S14400x1x4 (![0, 2] : Fin 2 → Fin S14400x1x4.rank)
  bcast_S1600x4_S1x1600x4_1_2 : S1600x4.BroadcastsInDim S1x1600x4 (![1, 2] : Fin 2 → Fin S1x1600x4.rank)
  bcast_S14400x1x4_S14400x1600x4_0_1_2 : S14400x1x4.BroadcastsInDim S14400x1600x4 (![0, 1, 2] : Fin 3 → Fin S14400x1600x4.rank)
  bcast_S1x1600x4_S14400x1600x4_0_1_2 : S1x1600x4.BroadcastsInDim S14400x1600x4 (![0, 1, 2] : Fin 3 → Fin S14400x1600x4.rank)
  reducesTo_S14400x1600x4_S14400x1600_d2 : S14400x1600x4.ReducesTo [2] S14400x1600
  slices_S14400x4_S14400x1_0_0 : S14400x4.Slices ![0, 0] S14400x1
  shapeCasts_S14400x1_S14400 : S14400x1.ShapeCasts S14400
  slices_S14400x4_S14400x1_0_1 : S14400x4.Slices ![0, 1] S14400x1
  slices_S14400x4_S14400x1_0_2 : S14400x4.Slices ![0, 2] S14400x1
  slices_S14400x4_S14400x1_0_3 : S14400x4.Slices ![0, 3] S14400x1
  concatenates_S14400x1_S14400x1_S14400x1_S14400x1_S14400x4_d1 : Shape.Concatenates [S14400x1, S14400x1, S14400x1, S14400x1] S14400x4 1
  slices_S1600x4_S1600x1_0_0 : S1600x4.Slices ![0, 0] S1600x1
  shapeCasts_S1600x1_S1600 : S1600x1.ShapeCasts S1600
  slices_S1600x4_S1600x1_0_1 : S1600x4.Slices ![0, 1] S1600x1
  slices_S1600x4_S1600x1_0_2 : S1600x4.Slices ![0, 2] S1600x1
  slices_S1600x4_S1600x1_0_3 : S1600x4.Slices ![0, 3] S1600x1
  concatenates_S1600x1_S1600x1_S1600x1_S1600x1_S1600x4_d1 : Shape.Concatenates [S1600x1, S1600x1, S1600x1, S1600x1] S1600x4 1
  slices_S14400x4_S14400x2_0_0 : S14400x4.Slices ![0, 0] S14400x2
  bcast_S14400x2_S14400x1x2_0_2 : S14400x2.BroadcastsInDim S14400x1x2 (![0, 2] : Fin 2 → Fin S14400x1x2.rank)
  slices_S1600x4_S1600x2_0_0 : S1600x4.Slices ![0, 0] S1600x2
  bcast_S1600x2_S1x1600x2_1_2 : S1600x2.BroadcastsInDim S1x1600x2 (![1, 2] : Fin 2 → Fin S1x1600x2.rank)
  bcast_S14400x1x2_S14400x1600x2_0_1_2 : S14400x1x2.BroadcastsInDim S14400x1600x2 (![0, 1, 2] : Fin 3 → Fin S14400x1600x2.rank)
  bcast_S1x1600x2_S14400x1600x2_0_1_2 : S1x1600x2.BroadcastsInDim S14400x1600x2 (![0, 1, 2] : Fin 3 → Fin S14400x1600x2.rank)
  slices_S14400x4_S14400x2_0_2 : S14400x4.Slices ![0, 2] S14400x2
  slices_S1600x4_S1600x2_0_2 : S1600x4.Slices ![0, 2] S1600x2
  bcast_S_S14400x1600x2 : S_.BroadcastsInDim S14400x1600x2 (![] : Fin 0 → Fin S14400x1600x2.rank)
  slices_S14400x1600x2_S14400x1600x1_0_0_0 : S14400x1600x2.Slices ![0, 0, 0] S14400x1600x1
  shapeCasts_S14400x1600x1_S14400x1600 : S14400x1600x1.ShapeCasts S14400x1600
  slices_S14400x1600x2_S14400x1600x1_0_0_1 : S14400x1600x2.Slices ![0, 0, 1] S14400x1600x1
  bcast_S1600_S1x1600_1 : S1600.BroadcastsInDim S1x1600 (![1] : Fin 1 → Fin S1x1600.rank)
  bcast_S14400x1_S14400x1600_0_1 : S14400x1.BroadcastsInDim S14400x1600 (![0, 1] : Fin 2 → Fin S14400x1600.rank)
  bcast_S1x1600_S14400x1600_0_1 : S1x1600.BroadcastsInDim S14400x1600 (![0, 1] : Fin 2 → Fin S14400x1600.rank)
  bcast_S_S14400x1600 : S_.BroadcastsInDim S14400x1600 (![] : Fin 0 → Fin S14400x1600.rank)
  shapeCasts_S14400x1600_S16x900x1600 : S14400x1600.ShapeCasts S16x900x1600
  gather_S14400x92_S1600x1_S14400x1600_0_1_n_n_1_1_144001_wf : GatherDims.WF S14400x92 S1600x1 S14400x1600 [0] [1] [] [1] [] 1 ![14400, 1]

variable [Facts₀]

def gather_S14400x92_S1600x1_S14400x1600_0_1_n_n_1_1_144001 : GatherDims S14400x92 S1600x1 S14400x1600 where
  offsetDims := [0]
  collapsedSliceDims := [1]
  operandBatchingDims := []
  startIndicesBatchingDims := []
  startIndexMap := [1]
  indexVectorDim := 1
  sliceSizes := ![14400, 1]
  wf := gather_S14400x92_S1600x1_S14400x1600_0_1_n_n_1_1_144001_wf

class Facts : Prop extends Facts₀ where

variable [Facts]
-- ==== Proof.SpecDefs.lean ====
/-
  The matching cost of one (prediction, target) pair, written twice over the extended reals: once in the order of
  operations of the fused program (`costK`), once in the order of the plain one (`costR`).

  Both read a row `L` of 92 class scores, a predicted box `q` and a target box `g`, each a centre (cx, cy) and a
  size (w, h). The row is turned into probabilities by the shifted softmax exp(L c − max L) / Σ_k exp(L k − max L).
  The cost is  5 · ‖q − g‖₁  −  prob(label)  −  2 · GIoU(q, g), where with I the area of the intersection of the two
  boxes, U = area q + area g − I the area of their union and E the area of the smallest box enclosing both,
  GIoU = I / U − (E − U) / E.

  The fused order gets 2 − prob(label) as Σ_c prob c · sel c with sel c = 1 at the label and 2 elsewhere, takes the
  enclosing extent on each axis as (w_q + w_g) − (unclipped intersection extent), and subtracts
  2 · (I / U + U / E); the plain order clips the enclosing extents at 0 and adds 2 · −(I / U − (E − U) / E).
-/
import Idealize.ShloMosaic.PureOps.Ideal.Laws

noncomputable section

open scoped BigOperators

namespace Cert.MatchCost

open Idealize.ShloMosaic

/-- The words of the constants the two programs spell. -/
def negInf : EReal := Ideal.ofBits .f32 0xFF800000#32
def c0 : EReal := Ideal.ofBits .f32 0x00000000#32
def c1 : EReal := Ideal.ofBits .f32 0x3F800000#32
def c2 : EReal := Ideal.ofBits .f32 0x40000000#32
def c5 : EReal := Ideal.ofBits .f32 0x40A00000#32
def hF : EReal := Ideal.ofBits .f32 0x3F000000#32
def hB : EReal := Ideal.ofBits .bf16 0x3F00#16
def zB : EReal := Ideal.ofBits .bf16 0x0000#16

/-! ## The softmax of a row -/

/-- The running maximum of the row from −∞. -/
def rowMax (L : Fin 92 → EReal) : EReal := (Finset.univ : Finset (Fin 92)).fold max negInf L

/-- exp of the row shifted by a value. -/
def expShift (L : Fin 92 → EReal) (M : EReal) (c : Fin 92) : EReal := Ideal.exp (L c - M)

/-- The shifted softmax with the shift `M`. -/
def probWith (L : Fin 92 → EReal) (M : EReal) (c : Fin 92) : EReal :=
  Ideal.div (expShift L M c) (∑ k : Fin 92, expShift L M k)

/-! ## The fused order -/

/-- Σ_c prob c · sel c. -/
def classK (L : Fin 92 → EReal) (sel : Fin 92 → EReal) : EReal :=
  ∑ c : Fin 92, probWith L (rowMax L) c * sel c

/-- |a − b| as the programs spell the absolute value. -/
def absDiff (a b : EReal) : EReal := max (a - b) (-(a - b))

def bboxK (q g : Fin 4 → EReal) : EReal :=
  (absDiff (q 0) (g 0) + absDiff (q 1) (g 1)) + (absDiff (q 2) (g 2) + absDiff (q 3) (g 3))

/-- The unclipped intersection extent on one axis, from centres `a`, `b` and sizes `u`, `v`. -/
def extK (a u b v : EReal) : EReal := min (a + hB * u) (b + hB * v) - max (a - hB * u) (b - hB * v)

def interK (q g : Fin 4 → EReal) : EReal :=
  max (extK (q 0) (q 2) (g 0) (g 2)) zB * max (extK (q 1) (q 3) (g 1) (g 3)) zB

def unionK (q g : Fin 4 → EReal) : EReal := (q 2 * q 3 + g 2 * g 3) - interK q g

def encK (q g : Fin 4 → EReal) : EReal :=
  ((q 2 + g 2) - extK (q 0) (q 2) (g 0) (g 2)) * ((q 3 + g 3) - extK (q 1) (q 3) (g 1) (g 3))

def costK (L : Fin 92 → EReal) (sel : Fin 92 → EReal) (q g : Fin 4 → EReal) : EReal :=
  (c5 * bboxK q g + classK L sel)
    - c2 * (Ideal.div (interK q g) (unionK q g) + Ideal.div (unionK q g) (encK q g))

/-! ## The plain order -/

def classR (L : Fin 92 → EReal) (ℓ : Fin 92) : EReal := -(probWith L (max negInf (rowMax L)) ℓ)

def bboxR (q g : Fin 4 → EReal) : EReal := c0 + ∑ k : Fin 4, absDiff (q k) (g k)

/-- The corners (x1, y1, x2, y2) of a box. -/
def lo (a u : EReal) : EReal := a - hF * u
def hi (a u : EReal) : EReal := a + hF * u

def areaR (b : Fin 4 → EReal) : EReal :=
  (hi (b 0) (b 2) - lo (b 0) (b 2)) * (hi (b 1) (b 3) - lo (b 1) (b 3))

def interR (q g : Fin 4 → EReal) : EReal :=
  max c0 (min (hi (q 0) (q 2)) (hi (g 0) (g 2)) - max (lo (q 0) (q 2)) (lo (g 0) (g 2)))
    * max c0 (min (hi (q 1) (q 3)) (hi (g 1) (g 3)) - max (lo (q 1) (q 3)) (lo (g 1) (g 3)))

def unionR (q g : Fin 4 → EReal) : EReal := (areaR q + areaR g) - interR q g

def encR (q g : Fin 4 → EReal) : EReal :=
  max c0 (max (hi (q 0) (q 2)) (hi (g 0) (g 2)) - min (lo (q 0) (q 2)) (lo (g 0) (g 2)))
    * max c0 (max (hi (q 1) (q 3)) (hi (g 1) (g 3)) - min (lo (q 1) (q 3)) (lo (g 1) (g 3)))

def giouR (q g : Fin 4 → EReal) : EReal :=
  Ideal.div (interR q g) (unionR q g) - Ideal.div (encR q g - unionR q g) (encR q g)

def costR (L : Fin 92 → EReal) (ℓ : Fin 92) (q g : Fin 4 → EReal) : EReal :=
  (c5 * bboxR q g + c1 * classR L ℓ) + c2 * (-(giouR q g))

end Cert.MatchCost

end
-- ==== Proof.LibColumnForms.lean ====
/-
  Four index forms of vector operations on the extended reals, at explicit coordinates and for any extents: the sum
  along the rows of a matrix started from zero, the cast of a vector to a one-column matrix, the broadcast of a
  one-column matrix along the rows, and the square root read at an index.
-/
import Idealize.ShloMosaic.Lib.ValueIdx
import Idealize.ShloMosaic.Lib.Pipeline.Value
import Idealize.ShloMosaic.PureOps.Ideal.Laws

noncomputable section

open scoped BigOperators

namespace Cert.Lib.ColumnForms

open Idealize.ShloMosaic Idealize.ShloMosaic.ValueIdx

variable {α : Type}

/-- The sum along the rows of an a×b array, started from the zero word, read at row r: the sum over the b columns
    of the entries of that row. -/
theorem rowSum_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src _ h hφ hacc (ix1 r)).trans ?_
  refine Finset.sum_congr rfl fun k _ => congrArg src ?_
  funext ax; apply Fin.ext
  match ax with
  | ⟨0, _⟩ => rfl
  | ⟨1, _⟩ => rfl

/-- An [a] array cast to a column [a, 1] reads, at (r, z), the operand at r, whatever the unit coordinate z. -/
theorem shapeCast_a_a1_apply {a : Nat} (x : (⟨1, ![a]⟩ : Shape).Idx → α) (h : (⟨1, ![a]⟩ : Shape).ShapeCasts ⟨2, ![a, 1]⟩)
    (r : Fin a) (z : Fin 1) : shapeCast ⟨2, ![a, 1]⟩ x h (ix2 r z) = x (ix1 r) :=
  shapeCast_apply x h _ _ (by
    have hz : z.val = 0 := by omega
    rw [Shape.rowMajor_val_two, Shape.rowMajor_val_one]
    show r.val = r.val * 1 + z.val
    rw [hz, Nat.mul_one, Nat.add_zero])

/-- A column [a, 1] broadcast to [a, b] reads, at (p, c), the column's entry of row p. -/
theorem broadcastTo_a1_ab_apply {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The square root of a vector reads, at an index, the square root of the entry. -/
theorem sqrt_apply {s : Shape} {φ : FTy} (a : FVec Ideal s φ) (i : s.Idx) : sqrt a i = Ideal.sqrt (a i) := rfl

end Cert.Lib.ColumnForms

end
-- ==== Proof.LibPoolForms.lean ====
/-
  Index forms of vector operations on the extended reals, at explicit coordinates and for any extents: the sum along
  the rows and the sum down the columns of a matrix started from the zero word, the maximum along the rows of a matrix
  started from the word of −∞, the broadcast of a one-entry matrix over a whole matrix, and the exponential read at an
  index.  The three reductions take the side condition on the starting word as the plain equation of two words of the format's width.
-/
import Idealize.ShloMosaic.Lib.ValueIdx
import Idealize.ShloMosaic.Lib.Pipeline.Value
import Idealize.ShloMosaic.PureOps.Ideal.Laws

noncomputable section

open scoped BigOperators

namespace Cert.Lib.PoolForms

open Idealize.ShloMosaic Idealize.ShloMosaic.ValueIdx

variable {α : Type}

/-- The sum down the columns of an a×b array, started from the zero word, read at column k: the sum over the a rows
    of the entries of that column. -/
theorem colSum_apply {a b : Nat} (src : FVec Ideal ⟨2, ![a, b]⟩ .f32)
    (h : (⟨2, ![a, b]⟩ : Shape).Reduces [0] ⟨1, ![b]⟩) (hφ : FKind.Formats .f32)
    (hacc : (0x00000000#32 : BitVec FTy.f32.bits) = 0x00000000#32) (k : Fin b) :
    multiReduction (F := Ideal) .add [0] ⟨1, ![b]⟩ src 0x00000000#32 h hφ hacc (ix1 k) = ∑ r : Fin a, src (ix2 r k) := by
  refine (Ideal.multiReduction_add_single src _ h hφ hacc (ix1 k)).trans ?_
  refine Finset.sum_congr rfl fun r _ => congrArg src ?_
  funext ax; apply Fin.ext
  match ax with
  | ⟨0, _⟩ => rfl
  | ⟨1, _⟩ => rfl

/-- The sum along the rows of an a×b array, started from the zero word, read at row r: the sum over the b columns
    of the entries of that row. -/
theorem rowSum_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec FTy.f32.bits) = 0x00000000#32) (r : Fin a) :
    multiReduction (F := Ideal) .add [1] ⟨1, ![a]⟩ src 0x00000000#32 h hφ hacc (ix1 r) = ∑ k : Fin b, src (ix2 r k) := by
  refine (Ideal.multiReduction_add_single src _ h hφ hacc (ix1 r)).trans ?_
  refine Finset.sum_congr rfl fun k _ => congrArg src ?_
  funext ax; apply Fin.ext
  match ax with
  | ⟨0, _⟩ => rfl
  | ⟨1, _⟩ => rfl

/-- The maximum along the rows of an a×b array started from the word of −∞, read at row r: the fold of max over the
    row's entries, from the value of that word. -/
theorem rowMax_apply {a b : Nat} (src : FVec Ideal ⟨2, ![a, b]⟩ .f32)
    (h : (⟨2, ![a, b]⟩ : Shape).Reduces [1] ⟨1, ![a]⟩) (hφ : FKind.Formats .f32)
    (hacc : (0xFF800000#32 : BitVec FTy.f32.bits) = 0xFF800000#32) (r : Fin a) :
    multiReduction (F := Ideal) .maximumf [1] ⟨1, ![a]⟩ src 0xFF800000#32 h hφ hacc (ix1 r)
      = (Finset.univ : Finset (Fin b)).fold max (Ideal.ofBits .f32 0xFF800000#32) (fun k => src (ix2 r k)) := by
  refine (Ideal.multiReduction_maximumf_single src 0xFF800000#32 h hφ hacc (ix1 r)).trans ?_
  refine Finset.fold_congr fun k _ => congrArg src ?_
  funext ax; apply Fin.ext
  match ax with
  | ⟨0, _⟩ => rfl
  | ⟨1, _⟩ => rfl

/-- A one-entry matrix [1, 1] broadcast to [a, b] reads its one entry everywhere. -/
theorem broadcastTo_11_ab_apply {a b : Nat} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The exponential of a vector reads, at an index, the exponential of the entry. -/
theorem exp_apply {s : Shape} {φ : FTy} (a : FVec Ideal s φ) (i : s.Idx) : exp a i = Ideal.exp (a i) := rfl

end Cert.Lib.PoolForms

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.KernelPay.lean ====
/-
  What the fused program's body stores, read one entry at a time.

  The body sees a block of 36 query positions × 16 batch entries as 576 rows, row 16·p + b being position p of
  batch entry b, and the 1600 targets as columns. Entry (p, b, t) of what it stores is the matching cost
  (`Cert.MatchCost.costK`) of row 16·p + b of the block's class scores and boxes against target t: the column
  vectors (one value per row) and row vectors (one value per target) are spread over the 576 × 1600 grid, the
  softmax is taken along each row of scores, and the product with the 92 × 1600 table that holds 1 where the
  class is the target's label and 2 elsewhere sums prob c · sel c over the classes.
-/
import proofs.«160558_g3908420239659_feedfinal_321_44_alg».proof.Proof.Gen.KernelIdeal.Skeleton
import Idealize.ShloMosaic.Lib.ValueIdx
import Idealize.ShloMosaic.Lib.ValueLayout
import Idealize.ShloMosaic.Lib.Pipeline.Value
import proofs.«160558_g3908420239659_feedfinal_321_44_alg».proof.Proof.SpecDefs
import proofs.«160558_g3908420239659_feedfinal_321_44_alg».proof.Proof.LibColumnForms
import proofs.«160558_g3908420239659_feedfinal_321_44_alg».proof.Proof.LibPoolForms
import proofs.«160558_g3908420239659_feedfinal_321_44_alg».proof.Proof.LibMatmulNN

noncomputable section

open scoped BigOperators

namespace Cert.KernelIdeal.Pay

open Cert.KernelIdeal Cert.KernelIdeal.Gen Idealize.ShloMosaic Idealize.ShloMosaic.ValueIdx Cert.MatchCost

/-- Row 16·p + b of the 576 rows. -/
def rowOf (p : Fin 36) (b : Fin 16) : Fin 576 := ⟨p.val * 16 + b.val, by have := p.isLt; have := b.isLt; omega⟩

section Layout
variable {α : Type}

/-- A [36, 16, n] block seen as 576 rows reads, at (16·p + b, c), the block at (p, b, c). -/
theorem rows_of_cube {n : Nat} (v : (⟨3, ![36, 16, n]⟩ : Shape).Idx → α)
    (h : (⟨3, ![36, 16, n]⟩ : Shape).ShapeCasts ⟨2, ![576, n]⟩) (p : Fin 36) (b : Fin 16) (c : Fin n) :
    shapeCast ⟨2, ![576, n]⟩ v h (ix2 (rowOf p b) c) = v (ix3 p b c) :=
  shapeCast_apply v h _ _ (by rw [Shape.rowMajor_val_three, Shape.rowMajor_val_two]; rfl)

/-- 576 rows seen as a [36, 16, n] block read, at (p, b, c), row 16·p + b at c. -/
theorem cube_of_rows {n : Nat} (v : (⟨2, ![576, n]⟩ : Shape).Idx → α)
    (h : (⟨2, ![576, n]⟩ : Shape).ShapeCasts ⟨3, ![36, 16, n]⟩) (p : Fin 36) (b : Fin 16) (c : Fin n) :
    shapeCast ⟨3, ![36, 16, n]⟩ v h (ix3 p b c) = v (ix2 (rowOf p b) c) :=
  shapeCast_apply v h _ _ (by rw [Shape.rowMajor_val_two, Shape.rowMajor_val_three]; rfl)

end Layout

/-! ## The box columns and rows -/

/-- Column k of the 576 × 4 array of predicted boxes: row 16·p + b holds coordinate k of the block's box (p, b). -/
theorem pay3_apply (v21 : Vec Ideal S36x16x4 .f32) (p : Fin 36) (b : Fin 16) (k : Fin 4) :
    k0_pay3 (F := Ideal) v21 (ix2 (rowOf p b) k) = v21 (ix3 p b k) := by
  unfold k0_pay3
  rw [shapeCast_self]
  exact rows_of_cube v21 _ p b k

theorem pay4_apply (v21 : Vec Ideal S36x16x4 .f32) (p : Fin 36) (b : Fin 16) :
    k0_pay4 (F := Ideal) v21 (ix2 (rowOf p b) (0 : Fin 1)) = v21 (ix3 p b (0 : Fin 4)) := by
  unfold k0_pay4
  exact (slice2_axis1_apply 0 _ _ (rowOf p b) (0 : Fin 1) (0 : Fin 4) rfl).trans (pay3_apply v21 p b 0)

theorem pay5_apply (v21 : Vec Ideal S36x16x4 .f32) (p : Fin 36) (b : Fin 16) :
    k0_pay5 (F := Ideal) v21 (ix2 (rowOf p b) (0 : Fin 1)) = v21 (ix3 p b (1 : Fin 4)) := by
  unfold k0_pay5
  exact (slice2_axis1_apply 1 _ _ (rowOf p b) (0 : Fin 1) (1 : Fin 4) rfl).trans (pay3_apply v21 p b 1)

theorem pay6_apply (v21 : Vec Ideal S36x16x4 .f32) (p : Fin 36) (b : Fin 16) :
    k0_pay6 (F := Ideal) v21 (ix2 (rowOf p b) (0 : Fin 1)) = v21 (ix3 p b (2 : Fin 4)) := by
  unfold k0_pay6
  exact (slice2_axis1_apply 2 _ _ (rowOf p b) (0 : Fin 1) (2 : Fin 4) rfl).trans (pay3_apply v21 p b 2)

theorem pay7_apply (v21 : Vec Ideal S36x16x4 .f32) (p : Fin 36) (b : Fin 16) :
    k0_pay7 (F := Ideal) v21 (ix2 (rowOf p b) (0 : Fin 1)) = v21 (ix3 p b (3 : Fin 4)) := by
  unfold k0_pay7
  exact (slice2_axis1_apply 3 _ _ (rowOf p b) (0 : Fin 1) (3 : Fin 4) rfl).trans (pay3_apply v21 p b 3)

/-- Row k of the 4 × 1600 array of target boxes, unchanged by the change of format. -/
theorem pay8_apply (v29 : Vec Ideal S4x1600 .f32) (k : Fin 4) (t : Fin 1600) :
    k0_pay8 (F := Ideal) v29 (ix2 k t) = v29 (ix2 k t) := by
  unfold k0_pay8
  rw [shapeCast_self]
  rfl

theorem pay9_apply (v29 : Vec Ideal S4x1600 .f32) (t : Fin 1600) :
    k0_pay9 (F := Ideal) v29 (ix2 (0 : Fin 1) t) = v29 (ix2 (0 : Fin 4) t) := by
  unfold k0_pay9
  exact (slice2_axis0_apply 0 _ _ (0 : Fin 1) t (0 : Fin 4) rfl).trans (pay8_apply v29 0 t)

theorem pay10_apply (v29 : Vec Ideal S4x1600 .f32) (t : Fin 1600) :
    k0_pay10 (F := Ideal) v29 (ix2 (0 : Fin 1) t) = v29 (ix2 (1 : Fin 4) t) := by
  unfold k0_pay10
  exact (slice2_axis0_apply 1 _ _ (0 : Fin 1) t (1 : Fin 4) rfl).trans (pay8_apply v29 1 t)

theorem pay11_apply (v29 : Vec Ideal S4x1600 .f32) (t : Fin 1600) :
    k0_pay11 (F := Ideal) v29 (ix2 (0 : Fin 1) t) = v29 (ix2 (2 : Fin 4) t) := by
  unfold k0_pay11
  exact (slice2_axis0_apply 2 _ _ (0 : Fin 1) t (2 : Fin 4) rfl).trans (pay8_apply v29 2 t)

theorem pay12_apply (v29 : Vec Ideal S4x1600 .f32) (t : Fin 1600) :
    k0_pay12 (F := Ideal) v29 (ix2 (0 : Fin 1) t) = v29 (ix2 (3 : Fin 4) t) := by
  unfold k0_pay12
  exact (slice2_axis0_apply 3 _ _ (0 : Fin 1) t (3 : Fin 4) rfl).trans (pay8_apply v29 3 t)

/-! ## The pairwise pieces, over any column and row vectors -/

/-- A column spread over the grid reads its row's entry; a row spread over the grid its target's entry. -/
theorem col_apply (v : FVec Ideal S576x1 .bf16) (r : Fin 576) (t : Fin 1600) :
    broadcastTo S576x1600 v broadcasts_S576x1_S576x1600 (ix2 r t) = v (ix2 r (0 : Fin 1)) :=
  Cert.Lib.ColumnForms.broadcastTo_a1_ab_apply v _ r t

theorem row_apply (v : FVec Ideal S1x1600 .bf16) (r : Fin 576) (t : Fin 1600) :
    broadcastTo S576x1600 v broadcasts_S1x1600_S576x1600 (ix2 r t) = v (ix2 (0 : Fin 1) t) :=
  broadcastTo_1b_ab_apply v _ r t

/-- |cx − cx'| + |cy − cy'| at (row, target). -/
theorem centre_apply (a b : FVec Ideal S576x1 .bf16) (a' b' : FVec Ideal S1x1600 .bf16) (r : Fin 576) (t : Fin 1600) :
    addf (absf (subf (broadcastTo S576x1600 a broadcasts_S576x1_S576x1600) (broadcastTo S576x1600 a' broadcasts_S1x1600_S576x1600)))
        (absf (subf (broadcastTo S576x1600 b broadcasts_S576x1_S576x1600) (broadcastTo S576x1600 b' broadcasts_S1x1600_S576x1600))) (ix2 r t)
      = absDiff (a (ix2 r 0)) (a' (ix2 0 t)) + absDiff (b (ix2 r 0)) (b' (ix2 0 t)) := by
  show max (_ - _) (-(_ - _)) + max (_ - _) (-(_ - _)) = _
  rw [col_apply, col_apply, row_apply, row_apply]
  rfl

theorem pay14_apply (v27 v28 : FVec Ideal S576x1 .bf16) (v34 v35 : FVec Ideal S1x1600 .bf16)
    (v44 : FVec Ideal S576x1600 .bf16) (r : Fin 576) (t : Fin 1600) :
    k0_pay14 (F := Ideal) v27 v28 v34 v35 v44 (ix2 r t)
      = v44 (ix2 r t) + (absDiff (v27 (ix2 r 0)) (v34 (ix2 0 t)) + absDiff (v28 (ix2 r 0)) (v35 (ix2 0 t))) := by
  unfold k0_pay14
  exact congrArg (v44 (ix2 r t) + ·) (centre_apply v27 v28 v34 v35 r t)

/-- The unclipped intersection extent on one axis at (row, target). -/
theorem ext_apply (a u : FVec Ideal S576x1 .bf16) (a' u' : FVec Ideal S1x1600 .bf16) (r : Fin 576) (t : Fin 1600) :
    k0_pay15 (F := Ideal) a u a' u' (ix2 r t) = extK (a (ix2 r 0)) (u (ix2 r 0)) (a' (ix2 0 t)) (u' (ix2 0 t)) := by
  unfold k0_pay15
  show min _ _ - max _ _ = _
  rw [col_apply, col_apply, row_apply, row_apply]
  rfl

theorem ext_apply' (a u : FVec Ideal S576x1 .bf16) (a' u' : FVec Ideal S1x1600 .bf16) (r : Fin 576) (t : Fin 1600) :
    k0_pay16 (F := Ideal) a u a' u' (ix2 r t) = extK (a (ix2 r 0)) (u (ix2 r 0)) (a' (ix2 0 t)) (u' (ix2 0 t)) := by
  unfold k0_pay16
  show min _ _ - max _ _ = _
  rw [col_apply, col_apply, row_apply, row_apply]
  rfl

/-- |cx − cx'| + |cy − cy'| of box (p, b) of the block against target t. -/
theorem pay13_apply (v21 : Vec Ideal S36x16x4 .f32) (v29 : Vec Ideal S4x1600 .f32) (p : Fin 36) (b : Fin 16) (t : Fin 1600) :
    k0_pay13 (F := Ideal) v21 v29 (ix2 (rowOf p b) t)
      = absDiff (v21 (ix3 p b 0)) (v29 (ix2 0 t)) + absDiff (v21 (ix3 p b 1)) (v29 (ix2 1 t)) := by
  unfold k0_pay13
  refine (centre_apply (k0_pay4 v21) (k0_pay5 v21) (k0_pay9 v29) (k0_pay10 v29) (rowOf p b) t).trans ?_
  rw [pay4_apply, pay5_apply, pay9_apply, pay10_apply]

/-! ## The softmax rows and the label table -/

/-- exp of each row shifted by its maximum. -/
def expRows (X : FVec Ideal S576x92 .f32) : FVec Ideal S576x92 .f32 :=
  exp (subf X (broadcastTo S576x92 (shapeCast S576x1 (multiReduction .maximumf [1] S576 X 0xFF800000#32
    reduces_S576x92_S576 (.inl rfl) rfl) shapeCasts_S576_S576x1) broadcasts_S576x1_S576x92))

/-- Each row divided by its sum. -/
def softmaxRows (X : FVec Ideal S576x92 .f32) : FVec Ideal S576x92 .f32 :=
  divf (expRows X) (broadcastTo S576x92 (shapeCast S576x1 (multiReduction .add [1] S576 (expRows X) 0x00000000#32
    reduces_S576x92_S576 (.inl rfl) rfl) shapeCasts_S576_S576x1) broadcasts_S576x1_S576x92)

theorem expRows_apply (X : FVec Ideal S576x92 .f32) (r : Fin 576) (c : Fin 92) :
    expRows X (ix2 r c) = expShift (fun k => X (ix2 r k)) (rowMax (fun k => X (ix2 r k))) c := by
  unfold expRows
  show Ideal.exp (X (ix2 r c) - broadcastTo S576x92 _ _ (ix2 r c)) = _
  rw [Cert.Lib.ColumnForms.broadcastTo_a1_ab_apply, Cert.Lib.ColumnForms.shapeCast_a_a1_apply,
    Cert.Lib.PoolForms.rowMax_apply]
  rfl

theorem softmaxRows_apply (X : FVec Ideal S576x92 .f32) (r : Fin 576) (c : Fin 92) :
    softmaxRows X (ix2 r c) = probWith (fun k => X (ix2 r k)) (rowMax (fun k => X (ix2 r k))) c := by
  unfold softmaxRows
  show Ideal.div (expRows X (ix2 r c)) (broadcastTo S576x92 _ _ (ix2 r c)) = _
  rw [Cert.Lib.ColumnForms.broadcastTo_a1_ab_apply, Cert.Lib.ColumnForms.shapeCast_a_a1_apply,
    Cert.Lib.PoolForms.rowSum_apply]
  unfold probWith
  rw [expRows_apply]
  exact congrArg (Ideal.div _) (Finset.sum_congr rfl fun k _ => expRows_apply X r k)

/-- The entry of the label table for a class and a label word: 1 where the class is the label, 2 elsewhere. -/
def selK (lab : BitVec 32) (c : Fin 92) : EReal :=
  Scalar.select (IntOp.cmpi .eq (BitVec.ofNat 32 c.val) lab) c1 c2

/-- The 92 × 1600 label table. -/
def selTable (v12 : Vec Ideal S1600 .i32) : FVec Ideal S92x1600 .f32 :=
  select (cmpi .eq (iota .tc S92x1600 32 [0] iota_S92x1600_d0_w32)
      (broadcastTo S92x1600 (shapeCast S1x1600 v12 shapeCasts_S1600_S1x1600) broadcasts_S1x1600_S92x1600))
    (broadcast S92x1600 (Scalar.ofBits .f32 0x3F800000#32)) (broadcast S92x1600 (Scalar.ofBits .f32 0x40000000#32))

theorem selTable_apply (v12 : Vec Ideal S1600 .i32) (c : Fin 92) (t : Fin 1600) :
    selTable v12 (ix2 c t) = selK (v12 (ix1 t)) c := by
  unfold selTable
  show Scalar.select (IntOp.cmpi .eq (iota .tc S92x1600 32 [0] iota_S92x1600_d0_w32 (ix2 c t))
    (broadcastTo S92x1600 _ _ (ix2 c t))) _ _ = _
  rw [iota_single_apply, broadcastTo_1b_ab_apply, shapeCast_a_1a_apply]
  rfl

/-- Σ_c prob c · sel c of row (p, b) against target t. -/
theorem pay2_apply (v0 : Vec Ideal S36x16x92 .f32) (v12 : Vec Ideal S1600 .i32) (p : Fin 36) (b : Fin 16) (t : Fin 1600) :
    k0_pay2 (F := Ideal) v0 v12 (ix2 (rowOf p b) t) = classK (fun c => v0 (ix3 p b c)) (selK (v12 (ix1 t))) := by
  have h : k0_pay2 (F := Ideal) v0 v12
      = matmul dot_S576x92_S92x1600_S576x1600_1_0_0_1_n_n none
          (softmaxRows (shapeCast S576x92 (shapeCast S36x16x92 v0 shapeCasts_S36x16x92_S36x16x92) shapeCasts_S36x16x92_S576x92))
          (selTable v12) (constant S576x1600 .f32 0x00000000#32) := rfl
  rw [h, shapeCast_self]
  refine (Cert.LibMatmulNN.matmul_zero_apply' _ rfl rfl rfl rfl rfl rfl none _ _ (rowOf p b) t).trans ?_
  unfold classK
  refine Finset.sum_congr rfl fun c _ => ?_
  rw [softmaxRows_apply, selTable_apply]
  have hrow : (fun k : Fin 92 => shapeCast S576x92 v0 shapeCasts_S36x16x92_S576x92 (ix2 (rowOf p b) k))
      = fun k => v0 (ix3 p b k) := funext fun k => rows_of_cube v0 _ p b k
  rw [hrow]

/-! ## The stored value -/

theorem pay1_apply (v20 : FVec Ideal S576x1600 .f32) (v27 v28 : FVec Ideal S576x1 .bf16) (v34 v35 : FVec Ideal S1x1600 .bf16)
    (v56 : FVec Ideal S576x1600 .f32) (v87 v94 v95 : FVec Ideal S576x1600 .bf16) (p : Fin 36) (b : Fin 16) (t : Fin 1600) :
    k0_pay1 (F := Ideal) v20 v27 v28 v34 v35 v56 v87 v94 v95 (ix3 p b t)
      = (c5 * v56 (ix2 (rowOf p b) t) + v20 (ix2 (rowOf p b) t))
        - c2 * (Ideal.div (max (v87 (ix2 (rowOf p b) t)) (v95 (ix2 (rowOf p b) t)) * max (v94 (ix2 (rowOf p b) t)) zB)
              ((v27 (ix2 (rowOf p b) 0) * v28 (ix2 (rowOf p b) 0) + v34 (ix2 0 t) * v35 (ix2 0 t))
                - max (v87 (ix2 (rowOf p b) t)) (v95 (ix2 (rowOf p b) t)) * max (v94 (ix2 (rowOf p b) t)) zB)
            + Ideal.div ((v27 (ix2 (rowOf p b) 0) * v28 (ix2 (rowOf p b) 0) + v34 (ix2 0 t) * v35 (ix2 0 t))
                - max (v87 (ix2 (rowOf p b) t)) (v95 (ix2 (rowOf p b) t)) * max (v94 (ix2 (rowOf p b) t)) zB)
              (((v27 (ix2 (rowOf p b) 0) + v34 (ix2 0 t)) - v87 (ix2 (rowOf p b) t))
                * ((v28 (ix2 (rowOf p b) 0) + v35 (ix2 0 t)) - v94 (ix2 (rowOf p b) t)))) := by
  unfold k0_pay1
  refine (cube_of_rows _ _ p b t).trans ?_
  show (_ * _ + _) - _ * (Ideal.div (_ * _) ((_ + _) - _ * _) + Ideal.div ((_ + _) - _ * _) (((_ + _) - _) * ((_ + _) - _))) = _
  simp only [col_apply, row_apply]
  rfl

/-- Entry (p, b, t) of what the body stores: the matching cost of row (p, b) of the blocks against target t. -/
theorem stored_apply (x0 : Vec Ideal S36x16x92 .f32) (x1 : Vec Ideal S36x16x4 .f32) (x2 : Vec Ideal S1600 .i32)
    (x3 : Vec Ideal S4x1600 .f32) (p : Fin 36) (b : Fin 16) (t : Fin 1600) :
    k0_pay1 (F := Ideal) (k0_pay2 x0 x2) (k0_pay6 x1) (k0_pay7 x1) (k0_pay11 x3) (k0_pay12 x3)
        (k0_pay14 (k0_pay6 x1) (k0_pay7 x1) (k0_pay11 x3) (k0_pay12 x3) (k0_pay13 x1 x3))
        (k0_pay15 (k0_pay4 x1) (k0_pay6 x1) (k0_pay9 x3) (k0_pay11 x3))
        (k0_pay16 (k0_pay5 x1) (k0_pay7 x1) (k0_pay10 x3) (k0_pay12 x3)) (k0_pay17 (F := Ideal)) (ix3 p b t)
      = costK (fun c => x0 (ix3 p b c)) (selK (x2 (ix1 t))) (fun k => x1 (ix3 p b k)) (fun k => x3 (ix2 k t)) := by
  rw [pay1_apply, pay2_apply, pay14_apply, pay13_apply, ext_apply, ext_apply']
  simp only [pay4_apply, pay5_apply, pay6_apply, pay7_apply, pay9_apply, pay10_apply, pay11_apply, pay12_apply]
  rfl

end Cert.KernelIdeal.Pay

end
-- ==== Proof.KernelValue.lean ====
/-
  What the fused program leaves in its result array, entry by entry.

  The host lines before the region lay the class scores and the predicted boxes out with the query position first
  (entry (q, b, ·) of the new array is entry (b, q, ·) of the argument) and the target boxes with the coordinate
  first (entry (k, t) is entry (t, k)). The region writes a [900, 16, 1600] array in 25 blocks of 36 query
  positions; block n is filled at grid point n from block n of the scores and boxes and from the whole label and
  target arrays, and the blocks together cover the array. The host line after the region swaps the two leading
  axes back. So entry (b, q, t) of the result is the matching cost of the scores and box of query q of batch
  entry b against the label and box of target t.
-/
import proofs.«160558_g3908420239659_feedfinal_321_44_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import proofs.«160558_g3908420239659_feedfinal_321_44_alg».proof.Proof.KernelPay

set_option maxRecDepth 16384

noncomputable section

namespace Cert.KernelIdeal.Whole

open Cert.KernelIdeal Cert.KernelIdeal.Gen Cert.KernelIdeal.Pay Idealize.ShloMosaic Idealize.ShloMosaic.TcCoe
open Idealize.ShloMosaic.ValueIdx Idealize.SL.Sem Idealize.ShloMosaic.StableHlo Cert.MatchCost
open Idealize.ShloMosaic.Pipeline (Dat Cfg Window)

variable (m : (ℓ : Loc nD τ sig) → Buf (Elt Ideal) ℓ) (ρ : Dev nD → PrngReg)

/-! ## The arrays the region finds -/

theorem V_v1 (c : Dev nD) : (V m c main_v1 : S900x16x92.Idx → EReal)
    = transpose S900x16x92 [1, 0, 2] (m ((c : Thread nD τ).loc main_arg0)) transposes_S16x900x92_S900x16x92_1_0_2 := by
  show StableHlo.after hostOps0 (fun b => m (c, b)) (Proc.devRef .tc main_v1) = _
  after_results

theorem V_v2 (c : Dev nD) : (V m c main_v2 : S900x16x4.Idx → EReal)
    = transpose S900x16x4 [1, 0, 2] (m ((c : Thread nD τ).loc main_arg1)) transposes_S16x900x4_S900x16x4_1_0_2 := by
  show StableHlo.after hostOps0 (fun b => m (c, b)) (Proc.devRef .tc main_v2) = _
  after_results

theorem V_v0 (c : Dev nD) : (V m c main_v0 : S4x1600.Idx → EReal)
    = transpose S4x1600 [1, 0] (m ((c : Thread nD τ).loc main_arg3)) transposes_S1600x4_S4x1600_1_0 := by
  show StableHlo.after hostOps0 (fun b => m (c, b)) (Proc.devRef .tc main_v0) = _
  after_results

section Layout
variable {α : Type}

/-- Swapping the two leading axes: entry (j, i, k) of the result is entry (i, j, k) of the operand. -/
theorem swap_apply {a b n : ℕ} (x : (⟨3, ![a, b, n]⟩ : Shape).Idx → α)
    (h : (⟨3, ![a, b, n]⟩ : Shape).Transposes [1, 0, 2] ⟨3, ![b, a, n]⟩) (j : Fin b) (i : Fin a) (k : Fin n) :
    transpose ⟨3, ![b, a, n]⟩ [1, 0, 2] x h (ix3 j i k) = x (ix3 i j k) :=
  transpose_apply _ x h _ _ fun c => match c with | ⟨0, _⟩ => rfl | ⟨1, _⟩ => rfl | ⟨2, _⟩ => rfl

end Layout

/-! ## The array the region writes, as one function -/

/-- Entry (q, b, t): the matching cost of the scores and box at (q, b) against the label and box of target t. -/
def cost3 (A1 : S900x16x92.Idx → EReal) (A2 : S900x16x4.Idx → EReal) (lab : S1600.Idx → BitVec 32)
    (tb : S4x1600.Idx → EReal) : S900x16x1600.Idx → EReal :=
  fun i => costK (fun c => A1 (ix3 (i 0) (i 1) c)) (selK (lab (ix1 (i 2)))) (fun k => A2 (ix3 (i 0) (i 1) k))
    (fun k => tb (ix2 k (i 2)))

/-- What the body stores at a block entry is `cost3` at the array entry, when the loaded blocks hold the arrays'
    entries of that row and that target. -/
theorem block_eq (x0 : Vec Ideal S36x16x92 .f32) (x1 : Vec Ideal S36x16x4 .f32) (x2 : Vec Ideal S1600 .i32)
    (x3 : Vec Ideal S4x1600 .f32) (A1 : S900x16x92.Idx → EReal) (A2 : S900x16x4.Idx → EReal)
    (lab : S1600.Idx → BitVec 32) (tb : S4x1600.Idx → EReal) (y : S36x16x1600.Idx) (i : S900x16x1600.Idx)
    (h0 : ∀ c : Fin 92, x0 (ix3 (y 0) (y 1) c) = A1 (ix3 (i 0) (i 1) c))
    (h1 : ∀ k : Fin 4, x1 (ix3 (y 0) (y 1) k) = A2 (ix3 (i 0) (i 1) k))
    (h2 : x2 (ix1 (y 2)) = lab (ix1 (i 2)))
    (h3 : ∀ k : Fin 4, x3 (ix2 k (y 2)) = tb (ix2 k (i 2))) :
    k0_pay1 (F := Ideal) (k0_pay2 x0 x2) (k0_pay6 x1) (k0_pay7 x1) (k0_pay11 x3) (k0_pay12 x3)
        (k0_pay14 (k0_pay6 x1) (k0_pay7 x1) (k0_pay11 x3) (k0_pay12 x3) (k0_pay13 x1 x3))
        (k0_pay15 (k0_pay4 x1) (k0_pay6 x1) (k0_pay9 x3) (k0_pay11 x3))
        (k0_pay16 (k0_pay5 x1) (k0_pay7 x1) (k0_pay10 x3) (k0_pay12 x3)) (k0_pay17 (F := Ideal)) y
      = cost3 A1 A2 lab tb i := by
  obtain ⟨p, b, t, rfl⟩ : ∃ (p : Fin 36) (b : Fin 16) (t : Fin 1600), y = ix3 p b t := ⟨y 0, y 1, y 2, eq_ix3 y⟩
  rw [stored_apply]
  unfold cost3
  have e0 : (fun c : Fin 92 => x0 (ix3 p b c)) = fun c => A1 (ix3 (i 0) (i 1) c) := funext h0
  have e1 : (fun k : Fin 4 => x1 (ix3 p b k)) = fun k => A2 (ix3 (i 0) (i 1) k) := funext h1
  have e3 : (fun k : Fin 4 => x3 (ix2 k t)) = fun k => tb (ix2 k (i 2)) := funext h3
  have e2 : x2 (ix1 t) = lab (ix1 (i 2)) := h2
  rw [e0, e1, e3, e2]

/-! ## The blocks -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the scores', boxes' and result's blocks move together along the query
    axis and stay at 0 on the others; the labels and the target boxes are one block. -/
theorem idx_facts : ∀ t : Fin cfg0.N, win0_0.index t (0 : Fin 3) = win0_4.index t (0 : Fin 3)
    ∧ win0_0.index t (1 : Fin 3) = 0 ∧ win0_0.index t (2 : Fin 3) = 0
    ∧ win0_1.index t (0 : Fin 3) = win0_4.index t (0 : Fin 3)
    ∧ win0_1.index t (1 : Fin 3) = 0 ∧ win0_1.index t (2 : Fin 3) = 0
    ∧ win0_2.index t (0 : Fin 1) = 0
    ∧ win0_3.index t (0 : Fin 2) = 0 ∧ win0_3.index t (1 : Fin 2) = 0
    ∧ win0_4.index t (1 : Fin 3) = 0 ∧ win0_4.index t (2 : Fin 3) = 0 ∧ win0_4.index t (0 : Fin 3) ≤ 24 :=
  (by decide +kernel : ∀ t : Fin grid0.N, _)

/-- Every block of 36 query positions is some point's. -/
theorem idx_onto : ∀ q0 : Fin 25, ∃ t : Fin cfg0.N, win0_4.index t = ![q0.val, 0, 0] :=
  (by decide +kernel : ∀ q0 : Fin 25, ∃ t : Fin grid0.N, win0_4.index t = ![q0.val, 0, 0])

/-- What point t writes back is block t of `cost3` of the arrays the region finds. -/
theorem flushed_eq (c : Dev nD) (t : Fin cfg0.N) :
    (dats m 0 c).flushed 4 t = ((cfg0.win 4).blk t).view.read (Elt Ideal)
      (cost3 (V m c main_v1) (V m c main_v2) (V m c main_arg2) (V m c main_v0)) := by
  show (cfg0.win 4).cut (grid0.coords t) ((dats m 0 c).after 4 t) = _
  rw [after0_4]
  unfold out0_4
  rw [View.canon_unit_zero hz3]
  simp only [View.ld_unit_zero (S := S36x16x92) hz3, View.ld_unit_zero (S := S36x16x4) hz3,
    View.ld_unit_zero (S := S1600) hz1, View.ld_unit_zero (S := S4x1600) hz2]
  obtain ⟨e00, e01, e02, e10, e11, e12, e2, e30, e31, e41, e42, e4b⟩ := idx_facts t
  funext j
  refine block_eq (iblk m c 0 t) (iblk m c 1 t) (iblk m c 2 t) (iblk m c 3 t) _ _ _ _ j
    (((cfg0.win 4).blk t).view.emb j) ?_ ?_ ?_ ?_
  · intro cc
    show V m c main_v1 (((cfg0.win 0).blk t).view.emb (ix3 (j 0) (j 1) cc)) = _
    refine congrArg (V m c main_v1) (funext fun a => Fin.ext ?_)
    match a with
    | ⟨0, _⟩ => show win0_0.index t (0 : Fin 3) * 36 + 1 * (j 0).val = win0_4.index t (0 : Fin 3) * 36 + 1 * (j 0).val; omega
    | ⟨1, _⟩ => show win0_0.index t (1 : Fin 3) * 16 + 1 * (j 1).val = win0_4.index t (1 : Fin 3) * 16 + 1 * (j 1).val; omega
    | ⟨2, _⟩ => show win0_0.index t (2 : Fin 3) * 92 + 1 * cc.val = cc.val; omega
  · intro k
    show V m c main_v2 (((cfg0.win 1).blk t).view.emb (ix3 (j 0) (j 1) k)) = _
    refine congrArg (V m c main_v2) (funext fun a => Fin.ext ?_)
    match a with
    | ⟨0, _⟩ => show win0_1.index t (0 : Fin 3) * 36 + 1 * (j 0).val = win0_4.index t (0 : Fin 3) * 36 + 1 * (j 0).val; omega
    | ⟨1, _⟩ => show win0_1.index t (1 : Fin 3) * 16 + 1 * (j 1).val = win0_4.index t (1 : Fin 3) * 16 + 1 * (j 1).val; omega
    | ⟨2, _⟩ => show win0_1.index t (2 : Fin 3) * 4 + 1 * k.val = k.val; omega
  · show V m c main_arg2 (((cfg0.win 2).blk t).view.emb (ix1 (j 2))) = _
    refine congrArg (V m c main_arg2) (funext fun a => Fin.ext ?_)
    match a with
    | ⟨0, _⟩ => show win0_2.index t (0 : Fin 1) * 1600 + 1 * (j 2).val = win0_4.index t (2 : Fin 3) * 1600 + 1 * (j 2).val; omega
  · intro k
    show V m c main_v0 (((cfg0.win 3).blk t).view.emb (ix2 k (j 2))) = _
    refine congrArg (V m c main_v0) (funext fun a => Fin.ext ?_)
    match a with
    | ⟨0, _⟩ => show win0_3.index t (0 : Fin 2) * 4 + 1 * k.val = k.val; omega
    | ⟨1, _⟩ => show win0_3.index t (1 : Fin 2) * 1600 + 1 * (j 2).val = win0_4.index t (2 : Fin 3) * 1600 + 1 * (j 2).val; omega

/-- An entry is in point t's block iff each coordinate is in the block's range on its axis. -/
theorem mem_blk (t : Fin cfg0.N) (i : S900x16x1600.Idx) :
    i ∈ ((cfg0.win 4).blk t).view.set ↔ ∀ a : Fin 3, win0_4.index t a * S36x16x1600.size a ≤ (i a).val
      ∧ (i a).val < win0_4.index t a * S36x16x1600.size a + S36x16x1600.size a := by
  show i ∈ ((View.whole main_v3).slice (win0_4.rect t)).set ↔ _
  rw [View.set_slice_whole, Rect.mem_set_unit]
  exact Iff.rfl

/-- The 25 blocks cover the array: query position q lies in block q / 36. -/
theorem cover (i : S900x16x1600.Idx) :
    ∃ t : Fin cfg0.N, (cfg0.win 4).flush t = true ∧ i ∈ ((cfg0.win 4).blk t).view.set := by
  have hi0 : (i 0).val < 900 := (i 0).isLt
  have hi1 : (i 1).val < 16 := (i 1).isLt
  have hi2 : (i 2).val < 1600 := (i 2).isLt
  obtain ⟨t, ht⟩ := idx_onto ⟨(i 0).val / 36, by omega⟩
  have q0 : win0_4.index t (0 : Fin 3) = (i 0).val / 36 := congrFun ht 0
  have q1 : win0_4.index t (1 : Fin 3) = 0 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 36 ≤ (i 0).val ∧ (i 0).val < win0_4.index t (0 : Fin 3) * 36 + 36; omega
  | ⟨1, _⟩ => show win0_4.index t (1 : Fin 3) * 16 ≤ (i 1).val ∧ (i 1).val < win0_4.index t (1 : Fin 3) * 16 + 16; omega
  | ⟨2, _⟩ => show win0_4.index t (2 : Fin 3) * 1600 ≤ (i 2).val ∧ (i 2).val < win0_4.index t (2 : Fin 3) * 1600 + 1600; omega

/-- The array the region leaves. -/
theorem final (c : Dev nD) : (dats m 0 c).arrAt 4 cfg0.N
    = cost3 (V m c main_v1) (V m c main_v2) (V m c main_arg2) (V m c main_v0) :=
  (dats m 0 c).arrAt_eq_of_cover 4 _ (fun t _ => flushed_eq m c t) cover

/-! ## The result -/

/-- The result array after the last host line: the region's array with its two leading axes swapped. -/
theorem tail_eq (c : Dev nD) : (Pipeline.afterTail₀ cfgs (dats m) 0 (V0 m) [hostOps1] c main_v4 : S16x900x1600.Idx → EReal)
    = transpose S16x900x1600 [1, 0, 2] (cost3 (V m c main_v1) (V m c main_v2) (V m c main_arg2) (V m c main_v0))
        transposes_S900x16x1600_S16x900x1600_1_0_2 := by
  unfold Pipeline.afterTail₀
  show StableHlo.after hostOps1 _ (Proc.devRef .tc main_v4) = _
  after_results
  refine congrArg (fun z => transpose S16x900x1600 [1, 0, 2] z transposes_S900x16x1600_S16x900x1600_1_0_2) ?_
  exact (Pipeline.withArrays_arr spec0 launch0.win.arr_inj c _ _ 4).trans (final m c)

/-- Entry (b, q, t) of the result: the matching cost of the scores and box of query q of batch entry b against the
    label and box of target t, all read off the argument arrays. -/
theorem result_apply (c : Dev nD) (b : Fin 16) (q : Fin 900) (t : Fin 1600) :
    (Pipeline.afterTail₀ cfgs (dats m) 0 (V0 m) [hostOps1] c main_v4 : S16x900x1600.Idx → EReal) (ix3 b q t)
      = costK (fun cc => (m ((c : Thread nD τ).loc main_arg0) : S16x900x92.Idx → EReal) (ix3 b q cc))
          (selK ((m ((c : Thread nD τ).loc main_arg2) : S1600.Idx → BitVec 32) (ix1 t)))
          (fun k => (m ((c : Thread nD τ).loc main_arg1) : S16x900x4.Idx → EReal) (ix3 b q k))
          (fun k => (m ((c : Thread nD τ).loc main_arg3) : S1600x4.Idx → EReal) (ix2 t k)) := by
  rw [tail_eq, swap_apply]
  unfold cost3
  rw [V_v1, V_v2, V_v0, V_main_arg2]
  have e0 : (fun cc : Fin 92 => transpose S900x16x92 [1, 0, 2] (m ((c : Thread nD τ).loc main_arg0))
        transposes_S16x900x92_S900x16x92_1_0_2 (ix3 q b cc))
      = fun cc => (m ((c : Thread nD τ).loc main_arg0) : S16x900x92.Idx → EReal) (ix3 b q cc) :=
    funext fun cc => swap_apply _ _ q b cc
  have e1 : (fun k : Fin 4 => transpose S900x16x4 [1, 0, 2] (m ((c : Thread nD τ).loc main_arg1))
        transposes_S16x900x4_S900x16x4_1_0_2 (ix3 q b k))
      = fun k => (m ((c : Thread nD τ).loc main_arg1) : S16x900x4.Idx → EReal) (ix3 b q k) :=
    funext fun k => swap_apply _ _ q b k
  have e3 : (fun k : Fin 4 => transpose S4x1600 [1, 0] (m ((c : Thread nD τ).loc main_arg3))
        transposes_S1600x4_S4x1600_1_0 (ix2 k t))
      = fun k => (m ((c : Thread nD τ).loc main_arg3) : S1600x4.Idx → EReal) (ix2 t k) :=
    funext fun k => transpose_ix2_apply _ _ k t
  exact congrArg₂ (fun a b => costK a _ b _) e0 e1 |>.trans (congrArg (costK _ _ _) e3)

/-! ## The run -/

/-- Every weakly fair execution of the fused program ends with the result array at the tail's value and the
    argument arrays as launched. -/
theorem run : θ_run defs (onTc (τ := τ) (main (F := Ideal))) ⟨m, fun _ => 0, ρ⟩ (fun r => ∀ c : Dev nD,
      r.2.mem ((c.tc : Thread nD τ).loc main_v4) = Pipeline.afterTail₀ cfgs (dats m) 0 (V0 m) [hostOps1] c main_v4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v4 (Pipeline.mem_restRefs_of main_v4 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Whole

end
-- ==== Proof.RefClass.lean ====
/-
  The plain program's class cost, read one entry at a time.

  The plain program sees the 16 × 900 queries as 14400 rows. Along each row of class scores it takes the shifted
  softmax: the maximum of the row (folded from −∞, and once more against −∞), exp of the shifted scores, their sum
  from 0, the quotient. The class cost of row R against target T is minus the probability at the target's label,
  fetched by a gather along the class axis: the label word, wrapped by 92 when negative, read as a signed number
  and clamped into [0, 91].
-/
import proofs.«160558_g3908420239659_feedfinal_321_44_alg».proof.Proof.Gen.ReferenceIdeal.Read
import Idealize.ShloMosaic.Lib.ValueIdx
import Idealize.ShloMosaic.Lib.Pipeline.Value
import Idealize.ShloMosaic.PureOps.Ideal.Laws
import proofs.«160558_g3908420239659_feedfinal_321_44_alg».proof.Proof.SpecDefs

noncomputable section

open scoped BigOperators

namespace Cert.ReferenceIdeal.Plain

open Cert.ReferenceIdeal Cert.ReferenceIdeal.Gen Cert.ReferenceIdeal.Read Idealize.ShloMosaic Idealize.ShloMosaic.ValueIdx
open Cert.MatchCost

variable (x0 : (⟨S16x900x92, .f32⟩ : BufTy).Contents (Elt Ideal)) (x2 : (⟨S1600, .i32⟩ : BufTy).Contents (Elt Ideal))

/-- Row R of the scores as the plain program lays them out. -/
def scoreRow (R : Fin 14400) : Fin 92 → EReal := fun c => val_main_v0 (F := Ideal) x0 (ix2 R c)

/-- The shift of row R: its maximum, taken once more against −∞. -/
def shiftOf (R : Fin 14400) : EReal := max negInf (rowMax (scoreRow x0 R))

theorem v1_at (R : Fin 14400) : val_main_v1 (F := Ideal) x0 (ix1 R) = rowMax (scoreRow x0 R) := by
  unfold val_main_v1
  rw [Host.reduce_eq_fold_single FloatOps.maximumf _ _ reducesTo_S14400x92_S14400_d1 (by decide) h_S_]
  have hf : (val_main_v0 (F := Ideal) x0 ∘ (by decide : S14400x92.Reduces [1] S14400).lift (ix1 R)) = scoreRow x0 R :=
    funext fun k => congrArg (val_main_v0 (F := Ideal) x0) (funext fun ax => Fin.ext (by
      match ax with
      | ⟨0, _⟩ => rfl
      | ⟨1, _⟩ => rfl))
  exact congrArg (fun f => Finset.fold max negInf f (Finset.univ : Finset (Fin 92))) hf

theorem v3_at (R : Fin 14400) : val_main_v3 (F := Ideal) x0 (ix1 R) = shiftOf x0 R := by
  rw [val_main_v3_apply, val_main_v2_apply, v1_at]
  rfl

theorem v5_at (R : Fin 14400) (c : Fin 92) : val_main_v5 (F := Ideal) x0 (ix2 R c) = shiftOf x0 R := by
  rw [val_main_v5_apply, val_main_v4_apply, ← v3_at]
  exact congrArg (val_main_v3 (F := Ideal) x0) (funext fun a => by match a with | ⟨0, _⟩ => rfl)

theorem v7_at (R : Fin 14400) (c : Fin 92) :
    val_main_v7 (F := Ideal) x0 (ix2 R c) = expShift (scoreRow x0 R) (shiftOf x0 R) c := by
  show Ideal.exp (val_main_v0 (F := Ideal) x0 (ix2 R c) - val_main_v5 (F := Ideal) x0 (ix2 R c)) = _
  rw [v5_at]
  rfl

theorem v8_at (R : Fin 14400) :
    val_main_v8 (F := Ideal) x0 (ix1 R) = ∑ k : Fin 92, expShift (scoreRow x0 R) (shiftOf x0 R) k := by
  rw [val_main_v8_apply]
  show Ideal.ofBits .f32 0x00000000#32 + _ = _
  rw [Ideal.ofBits_zero_f32, zero_add]
  refine Finset.sum_congr rfl fun k _ => ?_
  rw [← v7_at]
  exact congrArg (val_main_v7 (F := Ideal) x0) (funext fun a => by match a with | ⟨0, _⟩ => rfl | ⟨1, _⟩ => rfl)

theorem v10_at (R : Fin 14400) (c : Fin 92) :
    val_main_v10 (F := Ideal) x0 (ix2 R c) = ∑ k : Fin 92, expShift (scoreRow x0 R) (shiftOf x0 R) k := by
  rw [val_main_v10_apply, val_main_v9_apply, ← v8_at]
  exact congrArg (val_main_v8 (F := Ideal) x0) (funext fun a => by match a with | ⟨0, _⟩ => rfl)

/-- The probability of class c in row R. -/
theorem v11_at (R : Fin 14400) (c : Fin 92) :
    val_main_v11 (F := Ideal) x0 (ix2 R c) = probWith (scoreRow x0 R) (shiftOf x0 R) c := by
  show Ideal.div (val_main_v7 (F := Ideal) x0 (ix2 R c)) (val_main_v10 (F := Ideal) x0 (ix2 R c)) = _
  rw [v7_at, v10_at]
  rfl

/-! ## The label and the gather -/

/-- A label word, wrapped by 92 when negative. -/
def wrapLabel (w : BitVec 32) : BitVec 32 := Scalar.select (IntOp.cmpi .slt w 0#32) (IntOp.addi w 92#32) w

/-- A start index read signed and clamped into [0, 91]. -/
def clampIdx (w : BitVec 32) : Fin 92 := ⟨min w.toInt.toNat 91, by omega⟩

/-- The class a label word selects: wrapped, read signed, clamped into [0, 91]. -/
def classOf (w : BitVec 32) : Fin 92 := clampIdx (wrapLabel w)

theorem v18_at (T : Fin 1600) : val_main_v18 (F := Ideal) x2 (ix2 T (0 : Fin 1)) = wrapLabel (x2 (ix1 T)) := by
  rw [val_main_v18_apply]
  show Scalar.select (IntOp.cmpi .slt (x2 _) (val_main_v13 (F := Ideal) _)) (IntOp.addi (x2 _) (val_main_v15 (F := Ideal) _)) (x2 _) = _
  rw [val_main_v13_apply, val_main_v15_apply]
  exact congrArg (fun j => Scalar.select (IntOp.cmpi .slt (x2 j) 0#32) (IntOp.addi (x2 j) 92#32) (x2 j))
    (funext fun a => by match a with | ⟨0, _⟩ => rfl)

/-- A gather of whole columns: entry (R, T) of the result is the operand at (R, the clamped start index of T). -/
theorem gather_col (x : S14400x92.Idx → EReal) (idx : IVec S1600x1 32) (R : Fin 14400) (T : Fin 1600) :
    Host.gather gather_S14400x92_S1600x1_S14400x1600_0_1_n_n_1_1_144001 x idx (ix2 R T)
      = x (ix2 R (clampIdx (idx (ix2 T (0 : Fin 1))))) := by
  have h0 : gather_S14400x92_S1600x1_S14400x1600_0_1_n_n_1_1_144001.start (ix2 R T) idx (0 : Fin 2)
      + gather_S14400x92_S1600x1_S14400x1600_0_1_n_n_1_1_144001.batchCoord (ix2 R T) (0 : Fin 2)
      + gather_S14400x92_S1600x1_S14400x1600_0_1_n_n_1_1_144001.offCoord (ix2 R T) (0 : Fin 2) = R.val := by
    rw [GatherDims.batchCoord_eq_zero _ _ _ List.not_mem_nil, Nat.add_zero]
    unfold GatherDims.start
    rw [dif_neg (by decide), Nat.zero_add]
    unfold GatherDims.offCoord
    rw [dif_pos (by decide)]
    rfl
  have h1 : gather_S14400x92_S1600x1_S14400x1600_0_1_n_n_1_1_144001.start (ix2 R T) idx (1 : Fin 2)
      + gather_S14400x92_S1600x1_S14400x1600_0_1_n_n_1_1_144001.batchCoord (ix2 R T) (1 : Fin 2)
      + gather_S14400x92_S1600x1_S14400x1600_0_1_n_n_1_1_144001.offCoord (ix2 R T) (1 : Fin 2)
      = min (idx (ix2 T (0 : Fin 1))).toInt.toNat 91 := by
    rw [GatherDims.batchCoord_eq_zero _ _ _ List.not_mem_nil, Nat.add_zero,
      GatherDims.offCoord_eq_zero _ _ _ (by decide), Nat.add_zero]
    unfold GatherDims.start
    rw [dif_pos (by decide)]
    have hsi : gather_S14400x92_S1600x1_S14400x1600_0_1_n_n_1_1_144001.siIdx (ix2 R T)
        ⟨List.idxOf (1 : Fin 2) gather_S14400x92_S1600x1_S14400x1600_0_1_n_n_1_1_144001.startIndexMap,
          List.idxOf_lt_length_iff.2 (by decide)⟩ = ix2 T (0 : Fin 1) := by
      funext b; refine Fin.ext ?_
      match b with
      | ⟨0, _⟩ => rfl
      | ⟨1, _⟩ => rfl
    rw [hsi]
    rfl
  unfold Host.gather
  refine congrArg x (funext fun a => Fin.ext ?_)
  match a with
  | ⟨0, _⟩ => exact h0
  | ⟨1, _⟩ => exact h1

/-- Minus the probability at the target's label. -/
theorem v20_at (R : Fin 14400) (T : Fin 1600) :
    val_main_v20 (F := Ideal) x0 x2 (ix2 R T) = classR (scoreRow x0 R) (classOf (x2 (ix1 T))) := by
  show -(val_main_v19 (F := Ideal) x0 x2 (ix2 R T)) = _
  unfold val_main_v19
  rw [gather_col, v11_at]
  unfold classR classOf shiftOf
  rw [v18_at]

end Cert.ReferenceIdeal.Plain

end
-- ==== Proof.RefBoxes.lean ====
/-
  The plain program's box terms, read one entry at a time.

  A predicted box (row R of 14400) and a target box (row T of 1600) are (cx, cy, w, h). The L1 cost is the sum over
  the four coordinates of |q_k − g_k|, from 0. The corners are lo = centre − w/2 and hi = centre + w/2 per axis,
  gathered as (x1, y1, x2, y2) by joining four columns. The area of a box is (x2 − x1)(y2 − y1); the intersection
  extents are max(0, min(hi, hi') − max(lo, lo')) and the enclosing extents max(0, max(hi, hi') − min(lo, lo')),
  each taken on both axes at once as a trailing axis of length 2 and multiplied.
-/
import proofs.«160558_g3908420239659_feedfinal_321_44_alg».proof.Proof.Gen.ReferenceIdeal.Read
import Idealize.ShloMosaic.Lib.ValueIdx
import Idealize.ShloMosaic.Lib.Pipeline.Value
import Idealize.ShloMosaic.PureOps.Ideal.Laws
import proofs.«160558_g3908420239659_feedfinal_321_44_alg».proof.Proof.SpecDefs

noncomputable section

open scoped BigOperators

namespace Cert.ReferenceIdeal.Plain

open Cert.ReferenceIdeal Cert.ReferenceIdeal.Gen Cert.ReferenceIdeal.Read Idealize.ShloMosaic Idealize.ShloMosaic.ValueIdx
open Cert.MatchCost

variable (x1 : (⟨S16x900x4, .f32⟩ : BufTy).Contents (Elt Ideal)) (x3 : (⟨S1600x4, .f32⟩ : BufTy).Contents (Elt Ideal))

/-- Predicted box R and target box T as the plain program lays them out. -/
def qBox (R : Fin 14400) : Fin 4 → EReal := fun k => val_main_v12 (F := Ideal) x1 (ix2 R k)
def gBox (T : Fin 1600) : Fin 4 → EReal := fun k => x3 (ix2 T k)

/-! ## The coordinates as vectors -/

theorem v29_at (R : Fin 14400) : val_main_v29 (F := Ideal) x1 (ix1 R) = qBox x1 R 0 := by
  rw [val_main_v29_apply, val_main_v28_apply]
  exact congrArg (val_main_v12 (F := Ideal) x1) (funext fun a => Fin.ext (by
    match a with
    | ⟨0, _⟩ => exact Nat.div_one _
    | ⟨1, _⟩ => rfl))

theorem v31_at (R : Fin 14400) : val_main_v31 (F := Ideal) x1 (ix1 R) = qBox x1 R 1 := by
  rw [val_main_v31_apply, val_main_v30_apply]
  exact congrArg (val_main_v12 (F := Ideal) x1) (funext fun a => Fin.ext (by
    match a with
    | ⟨0, _⟩ => exact Nat.div_one _
    | ⟨1, _⟩ => rfl))

theorem v33_at (R : Fin 14400) : val_main_v33 (F := Ideal) x1 (ix1 R) = qBox x1 R 2 := by
  rw [val_main_v33_apply, val_main_v32_apply]
  exact congrArg (val_main_v12 (F := Ideal) x1) (funext fun a => Fin.ext (by
    match a with
    | ⟨0, _⟩ => exact Nat.div_one _
    | ⟨1, _⟩ => rfl))

theorem v35_at (R : Fin 14400) : val_main_v35 (F := Ideal) x1 (ix1 R) = qBox x1 R 3 := by
  rw [val_main_v35_apply, val_main_v34_apply]
  exact congrArg (val_main_v12 (F := Ideal) x1) (funext fun a => Fin.ext (by
    match a with
    | ⟨0, _⟩ => exact Nat.div_one _
    | ⟨1, _⟩ => rfl))

theorem v54_at (T : Fin 1600) : val_main_v54 (F := Ideal) x3 (ix1 T) = gBox x3 T 0 := by
  rw [val_main_v54_apply, val_main_v53_apply]
  exact congrArg x3 (funext fun a => Fin.ext (by
    match a with
    | ⟨0, _⟩ => exact Nat.div_one _
    | ⟨1, _⟩ => rfl))

theorem v56_at (T : Fin 1600) : val_main_v56 (F := Ideal) x3 (ix1 T) = gBox x3 T 1 := by
  rw [val_main_v56_apply, val_main_v55_apply]
  exact congrArg x3 (funext fun a => Fin.ext (by
    match a with
    | ⟨0, _⟩ => exact Nat.div_one _
    | ⟨1, _⟩ => rfl))

theorem v58_at (T : Fin 1600) : val_main_v58 (F := Ideal) x3 (ix1 T) = gBox x3 T 2 := by
  rw [val_main_v58_apply, val_main_v57_apply]
  exact congrArg x3 (funext fun a => Fin.ext (by
    match a with
    | ⟨0, _⟩ => exact Nat.div_one _
    | ⟨1, _⟩ => rfl))

theorem v60_at (T : Fin 1600) : val_main_v60 (F := Ideal) x3 (ix1 T) = gBox x3 T 3 := by
  rw [val_main_v60_apply, val_main_v59_apply]
  exact congrArg x3 (funext fun a => Fin.ext (by
    match a with
    | ⟨0, _⟩ => exact Nat.div_one _
    | ⟨1, _⟩ => rfl))

/-! ## The corners -/

theorem half_at (i : S14400.Idx) : val_main_v36 (F := Ideal) i = hF := by rw [val_main_v36_apply]; rfl
theorem half_at' (i : S14400.Idx) : val_main_v39 (F := Ideal) i = hF := by rw [val_main_v39_apply]; rfl
theorem half_at'' (i : S14400.Idx) : val_main_v42 (F := Ideal) i = hF := by rw [val_main_v42_apply]; rfl
theorem half_at''' (i : S14400.Idx) : val_main_v45 (F := Ideal) i = hF := by rw [val_main_v45_apply]; rfl
theorem halfg_at (i : S1600.Idx) : val_main_v61 (F := Ideal) i = hF := by rw [val_main_v61_apply]; rfl
theorem halfg_at' (i : S1600.Idx) : val_main_v64 (F := Ideal) i = hF := by rw [val_main_v64_apply]; rfl
theorem halfg_at'' (i : S1600.Idx) : val_main_v67 (F := Ideal) i = hF := by rw [val_main_v67_apply]; rfl
theorem halfg_at''' (i : S1600.Idx) : val_main_v70 (F := Ideal) i = hF := by rw [val_main_v70_apply]; rfl

theorem v38_at (R : Fin 14400) : val_main_v38 (F := Ideal) x1 (ix1 R) = lo (qBox x1 R 0) (qBox x1 R 2) := by
  show val_main_v29 (F := Ideal) x1 (ix1 R) - val_main_v36 (F := Ideal) (ix1 R) * val_main_v33 (F := Ideal) x1 (ix1 R) = _
  rw [v29_at, v33_at, half_at]; rfl
theorem v41_at (R : Fin 14400) : val_main_v41 (F := Ideal) x1 (ix1 R) = lo (qBox x1 R 1) (qBox x1 R 3) := by
  show val_main_v31 (F := Ideal) x1 (ix1 R) - val_main_v39 (F := Ideal) (ix1 R) * val_main_v35 (F := Ideal) x1 (ix1 R) = _
  rw [v31_at, v35_at, half_at']; rfl
theorem v44_at (R : Fin 14400) : val_main_v44 (F := Ideal) x1 (ix1 R) = hi (qBox x1 R 0) (qBox x1 R 2) := by
  show val_main_v29 (F := Ideal) x1 (ix1 R) + val_main_v42 (F := Ideal) (ix1 R) * val_main_v33 (F := Ideal) x1 (ix1 R) = _
  rw [v29_at, v33_at, half_at'']; rfl
theorem v47_at (R : Fin 14400) : val_main_v47 (F := Ideal) x1 (ix1 R) = hi (qBox x1 R 1) (qBox x1 R 3) := by
  show val_main_v31 (F := Ideal) x1 (ix1 R) + val_main_v45 (F := Ideal) (ix1 R) * val_main_v35 (F := Ideal) x1 (ix1 R) = _
  rw [v31_at, v35_at, half_at''']; rfl

theorem v63_at (T : Fin 1600) : val_main_v63 (F := Ideal) x3 (ix1 T) = lo (gBox x3 T 0) (gBox x3 T 2) := by
  show val_main_v54 (F := Ideal) x3 (ix1 T) - val_main_v61 (F := Ideal) (ix1 T) * val_main_v58 (F := Ideal) x3 (ix1 T) = _
  rw [v54_at, v58_at, halfg_at]; rfl
theorem v66_at (T : Fin 1600) : val_main_v66 (F := Ideal) x3 (ix1 T) = lo (gBox x3 T 1) (gBox x3 T 3) := by
  show val_main_v56 (F := Ideal) x3 (ix1 T) - val_main_v64 (F := Ideal) (ix1 T) * val_main_v60 (F := Ideal) x3 (ix1 T) = _
  rw [v56_at, v60_at, halfg_at']; rfl
theorem v69_at (T : Fin 1600) : val_main_v69 (F := Ideal) x3 (ix1 T) = hi (gBox x3 T 0) (gBox x3 T 2) := by
  show val_main_v54 (F := Ideal) x3 (ix1 T) + val_main_v67 (F := Ideal) (ix1 T) * val_main_v58 (F := Ideal) x3 (ix1 T) = _
  rw [v54_at, v58_at, halfg_at'']; rfl
theorem v72_at (T : Fin 1600) : val_main_v72 (F := Ideal) x3 (ix1 T) = hi (gBox x3 T 1) (gBox x3 T 3) := by
  show val_main_v56 (F := Ideal) x3 (ix1 T) + val_main_v70 (F := Ideal) (ix1 T) * val_main_v60 (F := Ideal) x3 (ix1 T) = _
  rw [v56_at, v60_at, halfg_at''']; rfl

/-- The four corners of a box in the order (x1, y1, x2, y2). -/
def corners (b : Fin 4 → EReal) : Fin 4 → EReal := ![lo (b 0) (b 2), lo (b 1) (b 3), hi (b 0) (b 2), hi (b 1) (b 3)]

theorem v52_at0 (R : Fin 14400) : val_main_v52 (F := Ideal) x1 (ix2 R (0 : Fin 4)) = corners (qBox x1 R) 0 := by
  unfold val_main_v52
  refine (concatenate_apply_piece (t := S14400x4) (1 : Fin 2) ([⟨S14400x1, (val_main_v48 (F := Ideal) x1)⟩, ⟨S14400x1, (val_main_v49 (F := Ideal) x1)⟩, ⟨S14400x1, (val_main_v50 (F := Ideal) x1)⟩, ⟨S14400x1, (val_main_v51 (F := Ideal) x1)⟩] : List ((s : Shape) × (s.Idx → EReal))) concatenates_S14400x1_S14400x1_S14400x1_S14400x1_S14400x4_d1 (ix2 R (0 : Fin 4)) 0 (by show (0 : ℕ) < 4; decide) S14400x1 (val_main_v48 (F := Ideal) x1) rfl rfl 0 rfl
    (ix2 R (0 : Fin 1)) (fun b hb => by
      match b with
      | ⟨0, _⟩ => rfl
      | ⟨1, _⟩ => exact absurd rfl hb) rfl).trans ?_
  rw [val_main_v48_apply]
  refine Eq.trans (congrArg (val_main_v38 (F := Ideal) x1) (funext fun a => by match a with | ⟨0, _⟩ => rfl)) (v38_at x1 R)

theorem v52_at1 (R : Fin 14400) : val_main_v52 (F := Ideal) x1 (ix2 R (1 : Fin 4)) = corners (qBox x1 R) 1 := by
  unfold val_main_v52
  refine (concatenate_apply_piece (t := S14400x4) (1 : Fin 2) ([⟨S14400x1, (val_main_v48 (F := Ideal) x1)⟩, ⟨S14400x1, (val_main_v49 (F := Ideal) x1)⟩, ⟨S14400x1, (val_main_v50 (F := Ideal) x1)⟩, ⟨S14400x1, (val_main_v51 (F := Ideal) x1)⟩] : List ((s : Shape) × (s.Idx → EReal))) concatenates_S14400x1_S14400x1_S14400x1_S14400x1_S14400x4_d1 (ix2 R (1 : Fin 4)) 1 (by show (1 : ℕ) < 4; decide) S14400x1 (val_main_v49 (F := Ideal) x1) rfl rfl 1 rfl
    (ix2 R (0 : Fin 1)) (fun b hb => by
      match b with
      | ⟨0, _⟩ => rfl
      | ⟨1, _⟩ => exact absurd rfl hb) rfl).trans ?_
  rw [val_main_v49_apply]
  refine Eq.trans (congrArg (val_main_v41 (F := Ideal) x1) (funext fun a => by match a with | ⟨0, _⟩ => rfl)) (v41_at x1 R)

theorem v52_at2 (R : Fin 14400) : val_main_v52 (F := Ideal) x1 (ix2 R (2 : Fin 4)) = corners (qBox x1 R) 2 := by
  unfold val_main_v52
  refine (concatenate_apply_piece (t := S14400x4) (1 : Fin 2) ([⟨S14400x1, (val_main_v48 (F := Ideal) x1)⟩, ⟨S14400x1, (val_main_v49 (F := Ideal) x1)⟩, ⟨S14400x1, (val_main_v50 (F := Ideal) x1)⟩, ⟨S14400x1, (val_main_v51 (F := Ideal) x1)⟩] : List ((s : Shape) × (s.Idx → EReal))) concatenates_S14400x1_S14400x1_S14400x1_S14400x1_S14400x4_d1 (ix2 R (2 : Fin 4)) 2 (by show (2 : ℕ) < 4; decide) S14400x1 (val_main_v50 (F := Ideal) x1) rfl rfl 2 rfl
    (ix2 R (0 : Fin 1)) (fun b hb => by
      match b with
      | ⟨0, _⟩ => rfl
      | ⟨1, _⟩ => exact absurd rfl hb) rfl).trans ?_
  rw [val_main_v50_apply]
  refine Eq.trans (congrArg (val_main_v44 (F := Ideal) x1) (funext fun a => by match a with | ⟨0, _⟩ => rfl)) (v44_at x1 R)

theorem v52_at3 (R : Fin 14400) : val_main_v52 (F := Ideal) x1 (ix2 R (3 : Fin 4)) = corners (qBox x1 R) 3 := by
  unfold val_main_v52
  refine (concatenate_apply_piece (t := S14400x4) (1 : Fin 2) ([⟨S14400x1, (val_main_v48 (F := Ideal) x1)⟩, ⟨S14400x1, (val_main_v49 (F := Ideal) x1)⟩, ⟨S14400x1, (val_main_v50 (F := Ideal) x1)⟩, ⟨S14400x1, (val_main_v51 (F := Ideal) x1)⟩] : List ((s : Shape) × (s.Idx → EReal))) concatenates_S14400x1_S14400x1_S14400x1_S14400x1_S14400x4_d1 (ix2 R (3 : Fin 4)) 3 (by show (3 : ℕ) < 4; decide) S14400x1 (val_main_v51 (F := Ideal) x1) rfl rfl 3 rfl
    (ix2 R (0 : Fin 1)) (fun b hb => by
      match b with
      | ⟨0, _⟩ => rfl
      | ⟨1, _⟩ => exact absurd rfl hb) rfl).trans ?_
  rw [val_main_v51_apply]
  refine Eq.trans (congrArg (val_main_v47 (F := Ideal) x1) (funext fun a => by match a with | ⟨0, _⟩ => rfl)) (v47_at x1 R)

theorem v77_at0 (T : Fin 1600) : val_main_v77 (F := Ideal) x3 (ix2 T (0 : Fin 4)) = corners (gBox x3 T) 0 := by
  unfold val_main_v77
  refine (concatenate_apply_piece (t := S1600x4) (1 : Fin 2) ([⟨S1600x1, (val_main_v73 (F := Ideal) x3)⟩, ⟨S1600x1, (val_main_v74 (F := Ideal) x3)⟩, ⟨S1600x1, (val_main_v75 (F := Ideal) x3)⟩, ⟨S1600x1, (val_main_v76 (F := Ideal) x3)⟩] : List ((s : Shape) × (s.Idx → EReal))) concatenates_S1600x1_S1600x1_S1600x1_S1600x1_S1600x4_d1 (ix2 T (0 : Fin 4)) 0 (by show (0 : ℕ) < 4; decide) S1600x1 (val_main_v73 (F := Ideal) x3) rfl rfl 0 rfl
    (ix2 T (0 : Fin 1)) (fun b hb => by
      match b with
      | ⟨0, _⟩ => rfl
      | ⟨1, _⟩ => exact absurd rfl hb) rfl).trans ?_
  rw [val_main_v73_apply]
  refine Eq.trans (congrArg (val_main_v63 (F := Ideal) x3) (funext fun a => by match a with | ⟨0, _⟩ => rfl)) (v63_at x3 T)

theorem v77_at1 (T : Fin 1600) : val_main_v77 (F := Ideal) x3 (ix2 T (1 : Fin 4)) = corners (gBox x3 T) 1 := by
  unfold val_main_v77
  refine (concatenate_apply_piece (t := S1600x4) (1 : Fin 2) ([⟨S1600x1, (val_main_v73 (F := Ideal) x3)⟩, ⟨S1600x1, (val_main_v74 (F := Ideal) x3)⟩, ⟨S1600x1, (val_main_v75 (F := Ideal) x3)⟩, ⟨S1600x1, (val_main_v76 (F := Ideal) x3)⟩] : List ((s : Shape) × (s.Idx → EReal))) concatenates_S1600x1_S1600x1_S1600x1_S1600x1_S1600x4_d1 (ix2 T (1 : Fin 4)) 1 (by show (1 : ℕ) < 4; decide) S1600x1 (val_main_v74 (F := Ideal) x3) rfl rfl 1 rfl
    (ix2 T (0 : Fin 1)) (fun b hb => by
      match b with
      | ⟨0, _⟩ => rfl
      | ⟨1, _⟩ => exact absurd rfl hb) rfl).trans ?_
  rw [val_main_v74_apply]
  refine Eq.trans (congrArg (val_main_v66 (F := Ideal) x3) (funext fun a => by match a with | ⟨0, _⟩ => rfl)) (v66_at x3 T)

theorem v77_at2 (T : Fin 1600) : val_main_v77 (F := Ideal) x3 (ix2 T (2 : Fin 4)) = corners (gBox x3 T) 2 := by
  unfold val_main_v77
  refine (concatenate_apply_piece (t := S1600x4) (1 : Fin 2) ([⟨S1600x1, (val_main_v73 (F := Ideal) x3)⟩, ⟨S1600x1, (val_main_v74 (F := Ideal) x3)⟩, ⟨S1600x1, (val_main_v75 (F := Ideal) x3)⟩, ⟨S1600x1, (val_main_v76 (F := Ideal) x3)⟩] : List ((s : Shape) × (s.Idx → EReal))) concatenates_S1600x1_S1600x1_S1600x1_S1600x1_S1600x4_d1 (ix2 T (2 : Fin 4)) 2 (by show (2 : ℕ) < 4; decide) S1600x1 (val_main_v75 (F := Ideal) x3) rfl rfl 2 rfl
    (ix2 T (0 : Fin 1)) (fun b hb => by
      match b with
      | ⟨0, _⟩ => rfl
      | ⟨1, _⟩ => exact absurd rfl hb) rfl).trans ?_
  rw [val_main_v75_apply]
  refine Eq.trans (congrArg (val_main_v69 (F := Ideal) x3) (funext fun a => by match a with | ⟨0, _⟩ => rfl)) (v69_at x3 T)

theorem v77_at3 (T : Fin 1600) : val_main_v77 (F := Ideal) x3 (ix2 T (3 : Fin 4)) = corners (gBox x3 T) 3 := by
  unfold val_main_v77
  refine (concatenate_apply_piece (t := S1600x4) (1 : Fin 2) ([⟨S1600x1, (val_main_v73 (F := Ideal) x3)⟩, ⟨S1600x1, (val_main_v74 (F := Ideal) x3)⟩, ⟨S1600x1, (val_main_v75 (F := Ideal) x3)⟩, ⟨S1600x1, (val_main_v76 (F := Ideal) x3)⟩] : List ((s : Shape) × (s.Idx → EReal))) concatenates_S1600x1_S1600x1_S1600x1_S1600x1_S1600x4_d1 (ix2 T (3 : Fin 4)) 3 (by show (3 : ℕ) < 4; decide) S1600x1 (val_main_v76 (F := Ideal) x3) rfl rfl 3 rfl
    (ix2 T (0 : Fin 1)) (fun b hb => by
      match b with
      | ⟨0, _⟩ => rfl
      | ⟨1, _⟩ => exact absurd rfl hb) rfl).trans ?_
  rw [val_main_v76_apply]
  refine Eq.trans (congrArg (val_main_v72 (F := Ideal) x3) (funext fun a => by match a with | ⟨0, _⟩ => rfl)) (v72_at x3 T)

/-! ## The areas -/

theorem v79_at (R : Fin 14400) : val_main_v79 (F := Ideal) x1 (ix1 R) = corners (qBox x1 R) 2 := by
  rw [val_main_v79_apply, val_main_v78_apply, ← v52_at2]
  exact congrArg (val_main_v52 (F := Ideal) x1) (funext fun a => Fin.ext (by
    match a with
    | ⟨0, _⟩ => exact Nat.div_one _
    | ⟨1, _⟩ => rfl))

theorem v81_at (R : Fin 14400) : val_main_v81 (F := Ideal) x1 (ix1 R) = corners (qBox x1 R) 0 := by
  rw [val_main_v81_apply, val_main_v80_apply, ← v52_at0]
  exact congrArg (val_main_v52 (F := Ideal) x1) (funext fun a => Fin.ext (by
    match a with
    | ⟨0, _⟩ => exact Nat.div_one _
    | ⟨1, _⟩ => rfl))

theorem v84_at (R : Fin 14400) : val_main_v84 (F := Ideal) x1 (ix1 R) = corners (qBox x1 R) 3 := by
  rw [val_main_v84_apply, val_main_v83_apply, ← v52_at3]
  exact congrArg (val_main_v52 (F := Ideal) x1) (funext fun a => Fin.ext (by
    match a with
    | ⟨0, _⟩ => exact Nat.div_one _
    | ⟨1, _⟩ => rfl))

theorem v86_at (R : Fin 14400) : val_main_v86 (F := Ideal) x1 (ix1 R) = corners (qBox x1 R) 1 := by
  rw [val_main_v86_apply, val_main_v85_apply, ← v52_at1]
  exact congrArg (val_main_v52 (F := Ideal) x1) (funext fun a => Fin.ext (by
    match a with
    | ⟨0, _⟩ => exact Nat.div_one _
    | ⟨1, _⟩ => rfl))

theorem v90_at (T : Fin 1600) : val_main_v90 (F := Ideal) x3 (ix1 T) = corners (gBox x3 T) 2 := by
  rw [val_main_v90_apply, val_main_v89_apply, ← v77_at2]
  exact congrArg (val_main_v77 (F := Ideal) x3) (funext fun a => Fin.ext (by
    match a with
    | ⟨0, _⟩ => exact Nat.div_one _
    | ⟨1, _⟩ => rfl))

theorem v92_at (T : Fin 1600) : val_main_v92 (F := Ideal) x3 (ix1 T) = corners (gBox x3 T) 0 := by
  rw [val_main_v92_apply, val_main_v91_apply, ← v77_at0]
  exact congrArg (val_main_v77 (F := Ideal) x3) (funext fun a => Fin.ext (by
    match a with
    | ⟨0, _⟩ => exact Nat.div_one _
    | ⟨1, _⟩ => rfl))

theorem v95_at (T : Fin 1600) : val_main_v95 (F := Ideal) x3 (ix1 T) = corners (gBox x3 T) 3 := by
  rw [val_main_v95_apply, val_main_v94_apply, ← v77_at3]
  exact congrArg (val_main_v77 (F := Ideal) x3) (funext fun a => Fin.ext (by
    match a with
    | ⟨0, _⟩ => exact Nat.div_one _
    | ⟨1, _⟩ => rfl))

theorem v97_at (T : Fin 1600) : val_main_v97 (F := Ideal) x3 (ix1 T) = corners (gBox x3 T) 1 := by
  rw [val_main_v97_apply, val_main_v96_apply, ← v77_at1]
  exact congrArg (val_main_v77 (F := Ideal) x3) (funext fun a => Fin.ext (by
    match a with
    | ⟨0, _⟩ => exact Nat.div_one _
    | ⟨1, _⟩ => rfl))

theorem v88_at (R : Fin 14400) : val_main_v88 (F := Ideal) x1 (ix1 R) = areaR (qBox x1 R) := by
  show (val_main_v79 (F := Ideal) x1 (ix1 R) - val_main_v81 (F := Ideal) x1 (ix1 R))
    * (val_main_v84 (F := Ideal) x1 (ix1 R) - val_main_v86 (F := Ideal) x1 (ix1 R)) = _
  rw [v79_at, v81_at, v84_at, v86_at]; rfl

theorem v99_at (T : Fin 1600) : val_main_v99 (F := Ideal) x3 (ix1 T) = areaR (gBox x3 T) := by
  show (val_main_v90 (F := Ideal) x3 (ix1 T) - val_main_v92 (F := Ideal) x3 (ix1 T))
    * (val_main_v95 (F := Ideal) x3 (ix1 T) - val_main_v97 (F := Ideal) x3 (ix1 T)) = _
  rw [v90_at, v92_at, v95_at, v97_at]; rfl

end Cert.ReferenceIdeal.Plain

end
-- ==== Proof.RefCost.lean ====
/-
  The plain program's cost, read one entry at a time, and its result.

  Entry (R, T) of the 14400 × 1600 cost is 5 · (L1 cost) + 1 · (class cost) + 2 · (−GIoU), with the intersection and
  enclosing extents read off the trailing axis of length 2, the areas spread from their rows and columns, and the
  quotients taken entry by entry. The result is that array seen as [16, 900, 1600]: entry (b, q, t) is entry
  (900 · b + q, t), whose row of scores and box are those of query q of batch entry b.
-/
import proofs.«160558_g3908420239659_feedfinal_321_44_alg».proof.Proof.RefClass
import proofs.«160558_g3908420239659_feedfinal_321_44_alg».proof.Proof.RefBoxes

noncomputable section

open scoped BigOperators

namespace Cert.ReferenceIdeal.Plain

open Cert.ReferenceIdeal Cert.ReferenceIdeal.Gen Cert.ReferenceIdeal.Read Idealize.ShloMosaic Idealize.ShloMosaic.ValueIdx
open Cert.MatchCost

variable (x0 : (⟨S16x900x92, .f32⟩ : BufTy).Contents (Elt Ideal)) (x1 : (⟨S16x900x4, .f32⟩ : BufTy).Contents (Elt Ideal))
  (x2 : (⟨S1600, .i32⟩ : BufTy).Contents (Elt Ideal)) (x3 : (⟨S1600x4, .f32⟩ : BufTy).Contents (Elt Ideal))

/-! ## The L1 cost -/

theorem v23_at (R : Fin 14400) (T : Fin 1600) (k : Fin 4) : val_main_v23 (F := Ideal) x1 (ix3 R T k) = qBox x1 R k := by
  rw [val_main_v23_apply, val_main_v21_apply]
  exact congrArg (val_main_v12 (F := Ideal) x1) (funext fun a => by match a with | ⟨0, _⟩ => rfl | ⟨1, _⟩ => rfl)

theorem v24_at (R : Fin 14400) (T : Fin 1600) (k : Fin 4) : val_main_v24 (F := Ideal) x3 (ix3 R T k) = gBox x3 T k := by
  rw [val_main_v24_apply, val_main_v22_apply]
  exact congrArg x3 (funext fun a => by match a with | ⟨0, _⟩ => rfl | ⟨1, _⟩ => rfl)

theorem v26_at (R : Fin 14400) (T : Fin 1600) (k : Fin 4) :
    val_main_v26 (F := Ideal) x1 x3 (ix3 R T k) = absDiff (qBox x1 R k) (gBox x3 T k) := by
  show max (val_main_v23 (F := Ideal) x1 (ix3 R T k) - val_main_v24 (F := Ideal) x3 (ix3 R T k))
    (-(val_main_v23 (F := Ideal) x1 (ix3 R T k) - val_main_v24 (F := Ideal) x3 (ix3 R T k))) = _
  rw [v23_at, v24_at]; rfl

theorem v27_at (R : Fin 14400) (T : Fin 1600) : val_main_v27 (F := Ideal) x1 x3 (ix2 R T) = bboxR (qBox x1 R) (gBox x3 T) := by
  rw [val_main_v27_apply]
  unfold bboxR
  refine congrArg₂ (· + ·) rfl (Finset.sum_congr rfl fun k _ => ?_)
  rw [← v26_at]
  exact congrArg (val_main_v26 (F := Ideal) x1 x3) (funext fun a => by match a with | ⟨0, _⟩ => rfl | ⟨1, _⟩ => rfl | ⟨2, _⟩ => rfl)

/-! ## The corner pairs spread over the (R, T) grid -/

theorem v104_at0 (R : Fin 14400) (T : Fin 1600) : val_main_v104 (F := Ideal) x1 (ix3 R T (0 : Fin 2)) = corners (qBox x1 R) 0 := by
  rw [val_main_v104_apply, val_main_v101_apply, val_main_v100_apply, ← v52_at0]
  exact congrArg (val_main_v52 (F := Ideal) x1) (funext fun a => Fin.ext (by match a with | ⟨0, _⟩ => rfl | ⟨1, _⟩ => rfl))

theorem v104_at1 (R : Fin 14400) (T : Fin 1600) : val_main_v104 (F := Ideal) x1 (ix3 R T (1 : Fin 2)) = corners (qBox x1 R) 1 := by
  rw [val_main_v104_apply, val_main_v101_apply, val_main_v100_apply, ← v52_at1]
  exact congrArg (val_main_v52 (F := Ideal) x1) (funext fun a => Fin.ext (by match a with | ⟨0, _⟩ => rfl | ⟨1, _⟩ => rfl))

theorem v105_at0 (R : Fin 14400) (T : Fin 1600) : val_main_v105 (F := Ideal) x3 (ix3 R T (0 : Fin 2)) = corners (gBox x3 T) 0 := by
  rw [val_main_v105_apply, val_main_v103_apply, val_main_v102_apply, ← v77_at0]
  exact congrArg (val_main_v77 (F := Ideal) x3) (funext fun a => Fin.ext (by match a with | ⟨0, _⟩ => rfl | ⟨1, _⟩ => rfl))

theorem v105_at1 (R : Fin 14400) (T : Fin 1600) : val_main_v105 (F := Ideal) x3 (ix3 R T (1 : Fin 2)) = corners (gBox x3 T) 1 := by
  rw [val_main_v105_apply, val_main_v103_apply, val_main_v102_apply, ← v77_at1]
  exact congrArg (val_main_v77 (F := Ideal) x3) (funext fun a => Fin.ext (by match a with | ⟨0, _⟩ => rfl | ⟨1, _⟩ => rfl))

theorem v111_at0 (R : Fin 14400) (T : Fin 1600) : val_main_v111 (F := Ideal) x1 (ix3 R T (0 : Fin 2)) = corners (qBox x1 R) 2 := by
  rw [val_main_v111_apply, val_main_v108_apply, val_main_v107_apply, ← v52_at2]
  exact congrArg (val_main_v52 (F := Ideal) x1) (funext fun a => Fin.ext (by match a with | ⟨0, _⟩ => rfl | ⟨1, _⟩ => rfl))

theorem v111_at1 (R : Fin 14400) (T : Fin 1600) : val_main_v111 (F := Ideal) x1 (ix3 R T (1 : Fin 2)) = corners (qBox x1 R) 3 := by
  rw [val_main_v111_apply, val_main_v108_apply, val_main_v107_apply, ← v52_at3]
  exact congrArg (val_main_v52 (F := Ideal) x1) (funext fun a => Fin.ext (by match a with | ⟨0, _⟩ => rfl | ⟨1, _⟩ => rfl))

theorem v112_at0 (R : Fin 14400) (T : Fin 1600) : val_main_v112 (F := Ideal) x3 (ix3 R T (0 : Fin 2)) = corners (gBox x3 T) 2 := by
  rw [val_main_v112_apply, val_main_v110_apply, val_main_v109_apply, ← v77_at2]
  exact congrArg (val_main_v77 (F := Ideal) x3) (funext fun a => Fin.ext (by match a with | ⟨0, _⟩ => rfl | ⟨1, _⟩ => rfl))

theorem v112_at1 (R : Fin 14400) (T : Fin 1600) : val_main_v112 (F := Ideal) x3 (ix3 R T (1 : Fin 2)) = corners (gBox x3 T) 3 := by
  rw [val_main_v112_apply, val_main_v110_apply, val_main_v109_apply, ← v77_at3]
  exact congrArg (val_main_v77 (F := Ideal) x3) (funext fun a => Fin.ext (by match a with | ⟨0, _⟩ => rfl | ⟨1, _⟩ => rfl))

theorem v132_at0 (R : Fin 14400) (T : Fin 1600) : val_main_v132 (F := Ideal) x1 (ix3 R T (0 : Fin 2)) = corners (qBox x1 R) 0 := by
  rw [val_main_v132_apply, val_main_v129_apply, val_main_v128_apply, ← v52_at0]
  exact congrArg (val_main_v52 (F := Ideal) x1) (funext fun a => Fin.ext (by match a with | ⟨0, _⟩ => rfl | ⟨1, _⟩ => rfl))

theorem v132_at1 (R : Fin 14400) (T : Fin 1600) : val_main_v132 (F := Ideal) x1 (ix3 R T (1 : Fin 2)) = corners (qBox x1 R) 1 := by
  rw [val_main_v132_apply, val_main_v129_apply, val_main_v128_apply, ← v52_at1]
  exact congrArg (val_main_v52 (F := Ideal) x1) (funext fun a => Fin.ext (by match a with | ⟨0, _⟩ => rfl | ⟨1, _⟩ => rfl))

theorem v133_at0 (R : Fin 14400) (T : Fin 1600) : val_main_v133 (F := Ideal) x3 (ix3 R T (0 : Fin 2)) = corners (gBox x3 T) 0 := by
  rw [val_main_v133_apply, val_main_v131_apply, val_main_v130_apply, ← v77_at0]
  exact congrArg (val_main_v77 (F := Ideal) x3) (funext fun a => Fin.ext (by match a with | ⟨0, _⟩ => rfl | ⟨1, _⟩ => rfl))

theorem v133_at1 (R : Fin 14400) (T : Fin 1600) : val_main_v133 (F := Ideal) x3 (ix3 R T (1 : Fin 2)) = corners (gBox x3 T) 1 := by
  rw [val_main_v133_apply, val_main_v131_apply, val_main_v130_apply, ← v77_at1]
  exact congrArg (val_main_v77 (F := Ideal) x3) (funext fun a => Fin.ext (by match a with | ⟨0, _⟩ => rfl | ⟨1, _⟩ => rfl))

theorem v139_at0 (R : Fin 14400) (T : Fin 1600) : val_main_v139 (F := Ideal) x1 (ix3 R T (0 : Fin 2)) = corners (qBox x1 R) 2 := by
  rw [val_main_v139_apply, val_main_v136_apply, val_main_v135_apply, ← v52_at2]
  exact congrArg (val_main_v52 (F := Ideal) x1) (funext fun a => Fin.ext (by match a with | ⟨0, _⟩ => rfl | ⟨1, _⟩ => rfl))

theorem v139_at1 (R : Fin 14400) (T : Fin 1600) : val_main_v139 (F := Ideal) x1 (ix3 R T (1 : Fin 2)) = corners (qBox x1 R) 3 := by
  rw [val_main_v139_apply, val_main_v136_apply, val_main_v135_apply, ← v52_at3]
  exact congrArg (val_main_v52 (F := Ideal) x1) (funext fun a => Fin.ext (by match a with | ⟨0, _⟩ => rfl | ⟨1, _⟩ => rfl))

theorem v140_at0 (R : Fin 14400) (T : Fin 1600) : val_main_v140 (F := Ideal) x3 (ix3 R T (0 : Fin 2)) = corners (gBox x3 T) 2 := by
  rw [val_main_v140_apply, val_main_v138_apply, val_main_v137_apply, ← v77_at2]
  exact congrArg (val_main_v77 (F := Ideal) x3) (funext fun a => Fin.ext (by match a with | ⟨0, _⟩ => rfl | ⟨1, _⟩ => rfl))

theorem v140_at1 (R : Fin 14400) (T : Fin 1600) : val_main_v140 (F := Ideal) x3 (ix3 R T (1 : Fin 2)) = corners (gBox x3 T) 3 := by
  rw [val_main_v140_apply, val_main_v138_apply, val_main_v137_apply, ← v77_at3]
  exact congrArg (val_main_v77 (F := Ideal) x3) (funext fun a => Fin.ext (by match a with | ⟨0, _⟩ => rfl | ⟨1, _⟩ => rfl))

/-! ## Intersection, union, enclosing box -/

theorem clip0_at (i : S14400x1600x2.Idx) : val_main_call0_v1 (F := Ideal) i = c0 := by rw [val_main_call0_v1_apply]; rfl
theorem clip1_at (i : S14400x1600x2.Idx) : val_main_call1_v1 (F := Ideal) i = c0 := by rw [val_main_call1_v1_apply]; rfl

theorem v115_at0 (R : Fin 14400) (T : Fin 1600) : val_main_v115 (F := Ideal) x1 x3 (ix3 R T (0 : Fin 2))
    = max c0 (min (corners (qBox x1 R) 2) (corners (gBox x3 T) 2) - max (corners (qBox x1 R) 0) (corners (gBox x3 T) 0)) := by
  show max (val_main_call0_v1 (F := Ideal) (ix3 R T (0 : Fin 2)))
    (min (val_main_v111 (F := Ideal) x1 (ix3 R T (0 : Fin 2))) (val_main_v112 (F := Ideal) x3 (ix3 R T (0 : Fin 2)))
      - max (val_main_v104 (F := Ideal) x1 (ix3 R T (0 : Fin 2))) (val_main_v105 (F := Ideal) x3 (ix3 R T (0 : Fin 2)))) = _
  rw [clip0_at, v111_at0, v112_at0, v104_at0, v105_at0]

theorem v143_at0 (R : Fin 14400) (T : Fin 1600) : val_main_v143 (F := Ideal) x1 x3 (ix3 R T (0 : Fin 2))
    = max c0 (max (corners (qBox x1 R) 2) (corners (gBox x3 T) 2) - min (corners (qBox x1 R) 0) (corners (gBox x3 T) 0)) := by
  show max (val_main_call1_v1 (F := Ideal) (ix3 R T (0 : Fin 2)))
    (max (val_main_v139 (F := Ideal) x1 (ix3 R T (0 : Fin 2))) (val_main_v140 (F := Ideal) x3 (ix3 R T (0 : Fin 2)))
      - min (val_main_v132 (F := Ideal) x1 (ix3 R T (0 : Fin 2))) (val_main_v133 (F := Ideal) x3 (ix3 R T (0 : Fin 2)))) = _
  rw [clip1_at, v139_at0, v140_at0, v132_at0, v133_at0]

theorem v115_at1 (R : Fin 14400) (T : Fin 1600) : val_main_v115 (F := Ideal) x1 x3 (ix3 R T (1 : Fin 2))
    = max c0 (min (corners (qBox x1 R) 3) (corners (gBox x3 T) 3) - max (corners (qBox x1 R) 1) (corners (gBox x3 T) 1)) := by
  show max (val_main_call0_v1 (F := Ideal) (ix3 R T (1 : Fin 2)))
    (min (val_main_v111 (F := Ideal) x1 (ix3 R T (1 : Fin 2))) (val_main_v112 (F := Ideal) x3 (ix3 R T (1 : Fin 2)))
      - max (val_main_v104 (F := Ideal) x1 (ix3 R T (1 : Fin 2))) (val_main_v105 (F := Ideal) x3 (ix3 R T (1 : Fin 2)))) = _
  rw [clip0_at, v111_at1, v112_at1, v104_at1, v105_at1]

theorem v143_at1 (R : Fin 14400) (T : Fin 1600) : val_main_v143 (F := Ideal) x1 x3 (ix3 R T (1 : Fin 2))
    = max c0 (max (corners (qBox x1 R) 3) (corners (gBox x3 T) 3) - min (corners (qBox x1 R) 1) (corners (gBox x3 T) 1)) := by
  show max (val_main_call1_v1 (F := Ideal) (ix3 R T (1 : Fin 2)))
    (max (val_main_v139 (F := Ideal) x1 (ix3 R T (1 : Fin 2))) (val_main_v140 (F := Ideal) x3 (ix3 R T (1 : Fin 2)))
      - min (val_main_v132 (F := Ideal) x1 (ix3 R T (1 : Fin 2))) (val_main_v133 (F := Ideal) x3 (ix3 R T (1 : Fin 2)))) = _
  rw [clip1_at, v139_at1, v140_at1, v132_at1, v133_at1]

theorem v117_eq (R : Fin 14400) (T : Fin 1600) :
    val_main_v117 (F := Ideal) x1 x3 (ix2 R T) = val_main_v115 (F := Ideal) x1 x3 (ix3 R T (0 : Fin 2)) := by
  rw [val_main_v117_apply, val_main_v116_apply]
  refine congrArg (val_main_v115 (F := Ideal) x1 x3) (funext fun a => Fin.ext ?_)
  have hR : R.val < 14400 := R.isLt
  have hT : T.val < 1600 := T.isLt
  match a with
  | ⟨0, _⟩ => show (R.val * 1600 + T.val) / 1600 = R.val; omega
  | ⟨1, _⟩ => show (R.val * 1600 + T.val) / 1 % 1600 = T.val; omega
  | ⟨2, _⟩ => rfl

theorem v119_eq (R : Fin 14400) (T : Fin 1600) :
    val_main_v119 (F := Ideal) x1 x3 (ix2 R T) = val_main_v115 (F := Ideal) x1 x3 (ix3 R T (1 : Fin 2)) := by
  rw [val_main_v119_apply, val_main_v118_apply]
  refine congrArg (val_main_v115 (F := Ideal) x1 x3) (funext fun a => Fin.ext ?_)
  have hR : R.val < 14400 := R.isLt
  have hT : T.val < 1600 := T.isLt
  match a with
  | ⟨0, _⟩ => show (R.val * 1600 + T.val) / 1600 = R.val; omega
  | ⟨1, _⟩ => show (R.val * 1600 + T.val) / 1 % 1600 = T.val; omega
  | ⟨2, _⟩ => rfl

theorem v145_eq (R : Fin 14400) (T : Fin 1600) :
    val_main_v145 (F := Ideal) x1 x3 (ix2 R T) = val_main_v143 (F := Ideal) x1 x3 (ix3 R T (0 : Fin 2)) := by
  rw [val_main_v145_apply, val_main_v144_apply]
  refine congrArg (val_main_v143 (F := Ideal) x1 x3) (funext fun a => Fin.ext ?_)
  have hR : R.val < 14400 := R.isLt
  have hT : T.val < 1600 := T.isLt
  match a with
  | ⟨0, _⟩ => show (R.val * 1600 + T.val) / 1600 = R.val; omega
  | ⟨1, _⟩ => show (R.val * 1600 + T.val) / 1 % 1600 = T.val; omega
  | ⟨2, _⟩ => rfl

theorem v147_eq (R : Fin 14400) (T : Fin 1600) :
    val_main_v147 (F := Ideal) x1 x3 (ix2 R T) = val_main_v143 (F := Ideal) x1 x3 (ix3 R T (1 : Fin 2)) := by
  rw [val_main_v147_apply, val_main_v146_apply]
  refine congrArg (val_main_v143 (F := Ideal) x1 x3) (funext fun a => Fin.ext ?_)
  have hR : R.val < 14400 := R.isLt
  have hT : T.val < 1600 := T.isLt
  match a with
  | ⟨0, _⟩ => show (R.val * 1600 + T.val) / 1600 = R.val; omega
  | ⟨1, _⟩ => show (R.val * 1600 + T.val) / 1 % 1600 = T.val; omega
  | ⟨2, _⟩ => rfl

theorem v120_at (R : Fin 14400) (T : Fin 1600) : val_main_v120 (F := Ideal) x1 x3 (ix2 R T) = interR (qBox x1 R) (gBox x3 T) := by
  show val_main_v117 (F := Ideal) x1 x3 (ix2 R T) * val_main_v119 (F := Ideal) x1 x3 (ix2 R T) = _
  rw [v117_eq, v119_eq, v115_at0, v115_at1]; rfl

theorem v148_at (R : Fin 14400) (T : Fin 1600) : val_main_v148 (F := Ideal) x1 x3 (ix2 R T) = encR (qBox x1 R) (gBox x3 T) := by
  show val_main_v145 (F := Ideal) x1 x3 (ix2 R T) * val_main_v147 (F := Ideal) x1 x3 (ix2 R T) = _
  rw [v145_eq, v147_eq, v143_at0, v143_at1]; rfl

theorem v123_at (R : Fin 14400) (T : Fin 1600) : val_main_v123 (F := Ideal) x1 (ix2 R T) = areaR (qBox x1 R) := by
  rw [val_main_v123_apply, val_main_v121_apply, ← v88_at]
  exact congrArg (val_main_v88 (F := Ideal) x1) (funext fun a => by match a with | ⟨0, _⟩ => rfl)

theorem v124_at (R : Fin 14400) (T : Fin 1600) : val_main_v124 (F := Ideal) x3 (ix2 R T) = areaR (gBox x3 T) := by
  rw [val_main_v124_apply, val_main_v122_apply, ← v99_at]
  exact congrArg (val_main_v99 (F := Ideal) x3) (funext fun a => by match a with | ⟨0, _⟩ => rfl)

theorem v126_at (R : Fin 14400) (T : Fin 1600) : val_main_v126 (F := Ideal) x1 x3 (ix2 R T) = unionR (qBox x1 R) (gBox x3 T) := by
  show (val_main_v123 (F := Ideal) x1 (ix2 R T) + val_main_v124 (F := Ideal) x3 (ix2 R T)) - val_main_v120 (F := Ideal) x1 x3 (ix2 R T) = _
  rw [v123_at, v124_at, v120_at]; rfl

theorem v151_at (R : Fin 14400) (T : Fin 1600) : val_main_v151 (F := Ideal) x1 x3 (ix2 R T) = giouR (qBox x1 R) (gBox x3 T) := by
  show Ideal.div (val_main_v120 (F := Ideal) x1 x3 (ix2 R T)) (val_main_v126 (F := Ideal) x1 x3 (ix2 R T))
    - Ideal.div (val_main_v148 (F := Ideal) x1 x3 (ix2 R T) - val_main_v126 (F := Ideal) x1 x3 (ix2 R T)) (val_main_v148 (F := Ideal) x1 x3 (ix2 R T)) = _
  rw [v120_at, v126_at, v148_at]; rfl

/-! ## The cost -/

theorem five_at (i : S14400x1600.Idx) : val_main_v153 (F := Ideal) i = c5 := by rw [val_main_v153_apply]; rfl
theorem one_at (i : S14400x1600.Idx) : val_main_v155 (F := Ideal) i = c1 := by rw [val_main_v155_apply]; rfl
theorem two_at (i : S14400x1600.Idx) : val_main_v158 (F := Ideal) i = c2 := by rw [val_main_v158_apply]; rfl

theorem v160_at (R : Fin 14400) (T : Fin 1600) : val_main_v160 (F := Ideal) x0 x1 x2 x3 (ix2 R T)
    = costR (scoreRow x0 R) (classOf (x2 (ix1 T))) (qBox x1 R) (gBox x3 T) := by
  rw [val_main_v160_apply, val_main_v157_apply, val_main_v154_apply, val_main_v156_apply, val_main_v159_apply,
    val_main_v152_apply, five_at, one_at, two_at, v27_at, v20_at, v151_at]
  rfl

/-! ## The result -/

/-- Row 900·b + q of the 14400 rows. -/
def rowR (b : Fin 16) (q : Fin 900) : Fin 14400 := ⟨b.val * 900 + q.val, by have := b.isLt; have := q.isLt; omega⟩

theorem scoreRow_eq (b : Fin 16) (q : Fin 900) : scoreRow x0 (rowR b q) = fun c => x0 (ix3 b q c) := by
  funext c
  unfold scoreRow
  rw [val_main_v0_apply]
  refine congrArg x0 (funext fun a => Fin.ext ?_)
  have hb : b.val < 16 := b.isLt
  have hq : q.val < 900 := q.isLt
  have hc : c.val < 92 := c.isLt
  match a with
  | ⟨0, _⟩ => show ((b.val * 900 + q.val) * 92 + c.val) / 82800 = b.val; omega
  | ⟨1, _⟩ => show ((b.val * 900 + q.val) * 92 + c.val) / 92 % 900 = q.val; omega
  | ⟨2, _⟩ => show ((b.val * 900 + q.val) * 92 + c.val) % 92 = c.val; omega

theorem qBox_eq (b : Fin 16) (q : Fin 900) : qBox x1 (rowR b q) = fun k => x1 (ix3 b q k) := by
  funext k
  unfold qBox
  rw [val_main_v12_apply]
  refine congrArg x1 (funext fun a => Fin.ext ?_)
  have hb : b.val < 16 := b.isLt
  have hq : q.val < 900 := q.isLt
  have hk : k.val < 4 := k.isLt
  match a with
  | ⟨0, _⟩ => show ((b.val * 900 + q.val) * 4 + k.val) / 3600 = b.val; omega
  | ⟨1, _⟩ => show ((b.val * 900 + q.val) * 4 + k.val) / 4 % 900 = q.val; omega
  | ⟨2, _⟩ => show ((b.val * 900 + q.val) * 4 + k.val) % 4 = k.val; omega

/-- Entry (b, q, t) of the plain program's result. -/
theorem result_apply (b : Fin 16) (q : Fin 900) (t : Fin 1600) : val_main_v161 (F := Ideal) x0 x1 x2 x3 (ix3 b q t)
    = costR (fun c => x0 (ix3 b q c)) (classOf (x2 (ix1 t))) (fun k => x1 (ix3 b q k)) (gBox x3 t) := by
  rw [val_main_v161_apply, ← scoreRow_eq, ← qBox_eq, ← v160_at]
  refine congrArg (val_main_v160 (F := Ideal) x0 x1 x2 x3) (funext fun a => Fin.ext ?_)
  have hb : b.val < 16 := b.isLt
  have hq : q.val < 900 := q.isLt
  have ht : t.val < 1600 := t.isLt
  match a with
  | ⟨0, _⟩ => show ((b.val * 900 + q.val) * 1600 + t.val) / 1600 = b.val * 900 + q.val; omega
  | ⟨1, _⟩ => show ((b.val * 900 + q.val) * 1600 + t.val) % 1600 = t.val; omega

end Cert.ReferenceIdeal.Plain

end
-- ==== Proof.LibRealCoe.lean ====
/-
  Real numbers inside the extended reals, under the exact operations.

  A finite sum of reals read as extended reals is the sum of the readings; the exact quotient of two reals with a
  nonzero divisor is their real quotient; the exact logarithm of a positive real and the exact exponential of a
  real are the real ones. With these a computation that never leaves the reals can be read in ℝ.
-/
import Idealize.ShloMosaic.PureOps.Ideal.Laws

noncomputable section

namespace Cert.LibRealCoe

open Idealize.ShloMosaic

/-- A finite sum of reals, read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum of the readings is the reading of the sum (the direction that collects coercions). -/
theorem sum_coe {ι : Type*} (s : Finset ι) (f : ι → ℝ) : ∑ i ∈ s, (f i : EReal) = ((∑ i ∈ s, f i : ℝ) : EReal) :=
  (coe_sum s f).symm

/-- The exact quotient of reals by a nonzero real. -/
theorem div_coe_coe (a b : ℝ) (hb : b ≠ 0) : Ideal.div (a : EReal) (b : EReal) = ((a / b : ℝ) : EReal) := by
  rw [Ideal.div_coe hb, ← EReal.coe_mul]
  congr 1
  rw [mul_one_div]

/-- The exact logarithm of a positive real. -/
theorem log_coe_pos (a : ℝ) (ha : 0 < a) : Ideal.log (a : EReal) = ((Real.log a : ℝ) : EReal) := by
  rw [Ideal.log_coe, if_neg (not_le.mpr ha)]

/-- The exact exponential of a real. -/
theorem exp_coe (a : ℝ) : Ideal.exp (a : EReal) = ((Real.exp a : ℝ) : EReal) := rfl

/-- The logistic function as the programs spell it, 1 / (1 + e^(-x)), of a real. -/
theorem logistic_coe (x : ℝ) :
    Ideal.div ((1 : ℝ) : EReal) (((1 : ℝ) : EReal) + Ideal.exp (-(x : EReal))) = ((1 / (1 + Real.exp (-x)) : ℝ) : EReal) := by
  rw [← EReal.coe_neg, exp_coe, ← EReal.coe_add, div_coe_coe _ _ (by positivity)]

end Cert.LibRealCoe

end
-- ==== Proof.SpecLaw.lean ====
/-
  The two orders of the matching cost agree on real inputs whose box sizes are not negative.

  On reals every intermediate up to the three areas I (intersection), U (union), E (enclosing box) is a real number.
  The softmax row sums to 1, so Σ_c prob c · sel c with sel = 1 at the label and 2 elsewhere is 2 − prob(label).
  On one axis, with corners lo = centre − size/2 and hi = centre + size/2, max(hi, hi') − min(lo, lo') equals
  (size + size') − (min(hi, hi') − max(lo, lo')), because max + min of a pair is its sum; with sizes ≥ 0 this extent
  is ≥ both sizes, hence ≥ 0 and the clip at 0 does nothing, and it vanishes only when both sizes vanish — then both
  areas and I vanish, so E = 0 forces U = 0 and I = 0.
  Where U ≠ 0 and E ≠ 0 the identity is (E − U)/E = 1 − U/E in the field of reals. Where a divisor vanishes the
  quotients take the conventional values of the extended reals (x/0 = +∞ for x > 0, −∞ otherwise) and both orders
  come out as the same infinity; this is checked case by case.
-/
import proofs.«160558_g3908420239659_feedfinal_321_44_alg».proof.Proof.SpecDefs
import proofs.«160558_g3908420239659_feedfinal_321_44_alg».proof.Proof.LibRealCoe

noncomputable section

open scoped BigOperators

namespace Cert.MatchCost

open Idealize.ShloMosaic Cert.LibRealCoe

/-! ## The constants -/

theorem negInf_eq : negInf = ⊥ := by simp [negInf, Ideal.ofBits, Ideal.ieee]
theorem c0_eq : c0 = ((0 : ℝ) : EReal) := by simp [c0]
theorem c1_eq : c1 = ((1 : ℝ) : EReal) := by simp [c1, Ideal.ofBits, Ideal.ieee, -EReal.coe_mul]; norm_num
theorem c2_eq : c2 = ((2 : ℝ) : EReal) := by simp [c2, Ideal.ofBits, Ideal.ieee, -EReal.coe_mul]; norm_num
theorem c5_eq : c5 = ((5 : ℝ) : EReal) := by simp [c5, Ideal.ofBits, Ideal.ieee, -EReal.coe_mul]; norm_num
theorem hF_eq : hF = ((1 / 2 : ℝ) : EReal) := by simp [hF, Ideal.ofBits, Ideal.ieee, -EReal.coe_mul]; norm_num
theorem hB_eq : hB = ((1 / 2 : ℝ) : EReal) := by simp [hB, Ideal.ofBits, Ideal.ieee, -EReal.coe_mul]; norm_num
theorem zB_eq : zB = ((0 : ℝ) : EReal) := by simp [zB, Ideal.ofBits, Ideal.ieee]

/-! ## Reals inside the extended reals -/

theorem coe_max (a b : ℝ) : max (a : EReal) (b : EReal) = ((max a b : ℝ) : EReal) :=
  (Monotone.map_max EReal.coe_strictMono.monotone).symm
theorem coe_min (a b : ℝ) : min (a : EReal) (b : EReal) = ((min a b : ℝ) : EReal) :=
  (Monotone.map_min EReal.coe_strictMono.monotone).symm

/-! ## The softmax -/

theorem rowMax_real (l : Fin 92 → ℝ) : ∃ M : ℝ, rowMax (fun c => (l c : EReal)) = (M : EReal) := by
  have h1 : rowMax (fun c => (l c : EReal)) ≠ ⊤ := by
    apply ne_of_lt
    unfold rowMax
    rw [Finset.fold_max_lt]
    exact ⟨by rw [negInf_eq]; exact bot_lt_top, fun x _ => EReal.coe_lt_top _⟩
  have h2 : rowMax (fun c => (l c : EReal)) ≠ ⊥ := by
    apply ne_of_gt
    unfold rowMax
    have h : ((l 0 : ℝ) : EReal) ≤ (Finset.univ : Finset (Fin 92)).fold max negInf (fun c => (l c : EReal)) := by
      rw [Finset.le_fold_max]
      exact Or.inr ⟨0, Finset.mem_univ _, le_rfl⟩
    exact lt_of_lt_of_le (EReal.bot_lt_coe _) h
  exact ⟨_, (EReal.coe_toReal h1 h2).symm⟩

/-- The real softmax with shift `M`. -/
def pr (l : Fin 92 → ℝ) (M : ℝ) (c : Fin 92) : ℝ := Real.exp (l c - M) / ∑ k : Fin 92, Real.exp (l k - M)

theorem probWith_real (l : Fin 92 → ℝ) (M : ℝ) (c : Fin 92) :
    probWith (fun c => (l c : EReal)) (M : EReal) c = ((pr l M c : ℝ) : EReal) := by
  unfold probWith expShift pr
  simp only [← EReal.coe_sub, exp_coe, sum_coe]
  exact div_coe_coe _ _ (ne_of_gt (Finset.sum_pos (fun k _ => Real.exp_pos _) Finset.univ_nonempty))

theorem pr_sum (l : Fin 92 → ℝ) (M : ℝ) : ∑ c : Fin 92, pr l M c = 1 := by
  unfold pr
  rw [← Finset.sum_div]
  exact div_self (ne_of_gt (Finset.sum_pos (fun k _ => Real.exp_pos _) Finset.univ_nonempty))

theorem classK_real (l : Fin 92 → ℝ) (M : ℝ) (hM : rowMax (fun c => (l c : EReal)) = (M : EReal))
    (sel : Fin 92 → EReal) (ℓ : Fin 92) (hsel : ∀ c, sel c = if c = ℓ then c1 else c2) :
    classK (fun c => (l c : EReal)) sel = ((2 - pr l M ℓ : ℝ) : EReal) := by
  unfold classK
  rw [hM]
  have hterm : ∀ c : Fin 92, probWith (fun c => (l c : EReal)) (M : EReal) c * sel c
      = ((2 * pr l M c - (if c = ℓ then pr l M c else 0) : ℝ) : EReal) := by
    intro c
    rw [probWith_real, hsel c, c1_eq, c2_eq]
    split
    · rw [← EReal.coe_mul]; congr 1; ring
    · rw [← EReal.coe_mul]; congr 1; ring
  rw [Finset.sum_congr rfl (fun c _ => hterm c), sum_coe]
  congr 1
  rw [Finset.sum_sub_distrib, ← Finset.mul_sum, pr_sum, Finset.sum_ite_eq' Finset.univ ℓ]
  simp

theorem classR_real (l : Fin 92 → ℝ) (M : ℝ) (hM : rowMax (fun c => (l c : EReal)) = (M : EReal)) (ℓ : Fin 92) :
    classR (fun c => (l c : EReal)) ℓ = ((-(pr l M ℓ) : ℝ) : EReal) := by
  unfold classR
  rw [hM, negInf_eq, max_eq_right bot_le, probWith_real, EReal.coe_neg]

/-! ## One axis of the boxes -/

/-- The unclipped intersection extent on one axis, over the reals. -/
def ext (a u b v : ℝ) : ℝ := min (a + 1 / 2 * u) (b + 1 / 2 * v) - max (a - 1 / 2 * u) (b - 1 / 2 * v)

theorem ext_le_left (a u b v : ℝ) : ext a u b v ≤ u := by
  unfold ext
  have h1 := min_le_left (a + 1 / 2 * u) (b + 1 / 2 * v)
  have h2 := le_max_left (a - 1 / 2 * u) (b - 1 / 2 * v)
  linarith

theorem ext_le_right (a u b v : ℝ) : ext a u b v ≤ v := by
  unfold ext
  have h1 := min_le_right (a + 1 / 2 * u) (b + 1 / 2 * v)
  have h2 := le_max_right (a - 1 / 2 * u) (b - 1 / 2 * v)
  linarith

/-- The enclosing extent is the two sizes less the intersection extent. -/
theorem enc_eq (a u b v : ℝ) :
    max (a + 1 / 2 * u) (b + 1 / 2 * v) - min (a - 1 / 2 * u) (b - 1 / 2 * v) = (u + v) - ext a u b v := by
  unfold ext
  have h1 := max_add_min (a + 1 / 2 * u) (b + 1 / 2 * v)
  have h2 := max_add_min (a - 1 / 2 * u) (b - 1 / 2 * v)
  linarith

theorem extK_real (a u b v : ℝ) : extK (a : EReal) (u : EReal) (b : EReal) (v : EReal) = ((ext a u b v : ℝ) : EReal) := by
  unfold extK ext
  rw [hB_eq]
  simp only [← EReal.coe_mul, ← EReal.coe_add, ← EReal.coe_sub, coe_max, coe_min]

theorem lo_real (a u : ℝ) : lo (a : EReal) (u : EReal) = ((a - 1 / 2 * u : ℝ) : EReal) := by
  unfold lo; rw [hF_eq]; simp only [← EReal.coe_mul, ← EReal.coe_sub]
theorem hi_real (a u : ℝ) : hi (a : EReal) (u : EReal) = ((a + 1 / 2 * u : ℝ) : EReal) := by
  unfold hi; rw [hF_eq]; simp only [← EReal.coe_mul, ← EReal.coe_add]

/-! ## The three areas over the reals -/

def interRe (q g : Fin 4 → ℝ) : ℝ := max (ext (q 0) (q 2) (g 0) (g 2)) 0 * max (ext (q 1) (q 3) (g 1) (g 3)) 0
def unionRe (q g : Fin 4 → ℝ) : ℝ := (q 2 * q 3 + g 2 * g 3) - interRe q g
def encRe (q g : Fin 4 → ℝ) : ℝ :=
  ((q 2 + g 2) - ext (q 0) (q 2) (g 0) (g 2)) * ((q 3 + g 3) - ext (q 1) (q 3) (g 1) (g 3))
def bboxRe (q g : Fin 4 → ℝ) : ℝ := (|q 0 - g 0| + |q 1 - g 1|) + (|q 2 - g 2| + |q 3 - g 3|)

theorem absDiff_real (a b : ℝ) : absDiff (a : EReal) (b : EReal) = ((|a - b| : ℝ) : EReal) := by
  unfold absDiff
  simp only [← EReal.coe_sub, ← EReal.coe_neg, coe_max]
  rfl

variable (q g : Fin 4 → ℝ)

local notation "Q" => (fun k : Fin 4 => ((q k : ℝ) : EReal))
local notation "G" => (fun k : Fin 4 => ((g k : ℝ) : EReal))

theorem bboxK_real : bboxK Q G = ((bboxRe q g : ℝ) : EReal) := by
  unfold bboxK bboxRe
  simp only [absDiff_real, ← EReal.coe_add]

theorem bboxR_real : bboxR Q G = ((bboxRe q g : ℝ) : EReal) := by
  unfold bboxR bboxRe
  rw [c0_eq]
  simp only [absDiff_real, sum_coe, ← EReal.coe_add]
  congr 1
  rw [Fin.sum_univ_four]; ring

theorem interK_real : interK Q G = ((interRe q g : ℝ) : EReal) := by
  unfold interK interRe
  rw [zB_eq]
  simp only [extK_real, coe_max, ← EReal.coe_mul]

theorem unionK_real : unionK Q G = ((unionRe q g : ℝ) : EReal) := by
  unfold unionK unionRe
  rw [interK_real]
  simp only [← EReal.coe_mul, ← EReal.coe_add, ← EReal.coe_sub]

theorem encK_real : encK Q G = ((encRe q g : ℝ) : EReal) := by
  unfold encK encRe
  simp only [extK_real, ← EReal.coe_mul, ← EReal.coe_add, ← EReal.coe_sub]

theorem areaR_real (b : Fin 4 → ℝ) : areaR (fun k : Fin 4 => ((b k : ℝ) : EReal)) = ((b 2 * b 3 : ℝ) : EReal) := by
  unfold areaR
  simp only [lo_real, hi_real, ← EReal.coe_sub, ← EReal.coe_mul]
  congr 1; ring

theorem interR_real : interR Q G = ((interRe q g : ℝ) : EReal) := by
  unfold interR interRe ext
  rw [c0_eq]
  simp only [lo_real, hi_real, coe_max, coe_min, ← EReal.coe_sub, ← EReal.coe_mul]
  congr 1
  rw [max_comm (0 : ℝ), max_comm (0 : ℝ)]

theorem unionR_real : unionR Q G = ((unionRe q g : ℝ) : EReal) := by
  unfold unionR unionRe
  rw [interR_real, areaR_real, areaR_real]
  simp only [← EReal.coe_add, ← EReal.coe_sub]

theorem encR_real (hq2 : 0 ≤ q 2) (hq3 : 0 ≤ q 3) : encR Q G = ((encRe q g : ℝ) : EReal) := by
  unfold encR encRe
  rw [c0_eq]
  simp only [lo_real, hi_real, coe_max, coe_min, ← EReal.coe_sub, ← EReal.coe_mul]
  congr 1
  rw [enc_eq, enc_eq]
  have hx := ext_le_right (q 0) (q 2) (g 0) (g 2)
  have hy := ext_le_right (q 1) (q 3) (g 1) (g 3)
  rw [max_eq_right (by linarith), max_eq_right (by linarith)]

/-- Where the enclosing area vanishes, so do the union and the intersection. -/
theorem enc_zero (hq2 : 0 ≤ q 2) (hq3 : 0 ≤ q 3) (hg2 : 0 ≤ g 2) (hg3 : 0 ≤ g 3) (h : encRe q g = 0) :
    unionRe q g = 0 ∧ interRe q g = 0 := by
  have hx1 := ext_le_left (q 0) (q 2) (g 0) (g 2)
  have hx2 := ext_le_right (q 0) (q 2) (g 0) (g 2)
  have hy1 := ext_le_left (q 1) (q 3) (g 1) (g 3)
  have hy2 := ext_le_right (q 1) (q 3) (g 1) (g 3)
  unfold encRe at h
  unfold unionRe interRe
  rcases mul_eq_zero.mp h with h0 | h0
  · have e1 : q 2 = 0 := by linarith
    have e2 : g 2 = 0 := by linarith
    have e3 : ext (q 0) (q 2) (g 0) (g 2) ≤ 0 := by linarith
    rw [max_eq_right e3, e1, e2]; simp
  · have e1 : q 3 = 0 := by linarith
    have e2 : g 3 = 0 := by linarith
    have e3 : ext (q 1) (q 3) (g 1) (g 3) ≤ 0 := by linarith
    rw [max_eq_right e3, e1, e2]; simp

/-! ## The last step, on the extended reals -/

theorem div_zero_pos (x : ℝ) (hx : 0 < x) : Ideal.div (x : EReal) ((0 : ℝ) : EReal) = ⊤ := by
  unfold Ideal.div
  rw [if_pos (by simp), if_pos (by exact_mod_cast hx)]

theorem div_zero_nonpos (x : ℝ) (hx : x ≤ 0) : Ideal.div (x : EReal) ((0 : ℝ) : EReal) = ⊥ := by
  unfold Ideal.div
  rw [if_pos (by simp), if_neg (by exact_mod_cast not_lt.mpr hx)]

theorem sub_two_bot (x : ℝ) : (x : EReal) - ((2 : ℝ) : EReal) * ⊥ = ⊤ := by
  rw [EReal.coe_mul_bot_of_pos (by norm_num), EReal.coe_sub_bot]
theorem add_two_top (x : ℝ) : (x : EReal) + ((2 : ℝ) : EReal) * ⊤ = ⊤ := by
  rw [EReal.coe_mul_top_of_pos (by norm_num), EReal.coe_add_top]
theorem sub_two_top (x : ℝ) : (x : EReal) - ((2 : ℝ) : EReal) * ⊤ = ⊥ := by
  rw [EReal.coe_mul_top_of_pos (by norm_num), EReal.sub_top]
theorem add_two_bot (x : ℝ) : (x : EReal) + ((2 : ℝ) : EReal) * ⊥ = ⊥ := by
  rw [EReal.coe_mul_bot_of_pos (by norm_num), EReal.add_bot]

theorem combine (a p I U E : ℝ) (hI : 0 ≤ I) (hE : E = 0 → U = 0 ∧ I = 0) :
    (((5 : ℝ) : EReal) * (a : EReal) + ((2 - p : ℝ) : EReal))
        - ((2 : ℝ) : EReal) * (Ideal.div (I : EReal) (U : EReal) + Ideal.div (U : EReal) (E : EReal))
      = (((5 : ℝ) : EReal) * (a : EReal) + ((1 : ℝ) : EReal) * ((-p : ℝ) : EReal))
        + ((2 : ℝ) : EReal) * (-(Ideal.div (I : EReal) (U : EReal) - Ideal.div ((E : EReal) - (U : EReal)) (E : EReal))) := by
  have hX : ((5 : ℝ) : EReal) * (a : EReal) + ((2 - p : ℝ) : EReal) = ((5 * a + (2 - p) : ℝ) : EReal) := by
    rw [← EReal.coe_mul, ← EReal.coe_add]
  have hY : ((5 : ℝ) : EReal) * (a : EReal) + ((1 : ℝ) : EReal) * ((-p : ℝ) : EReal) = ((5 * a + 1 * (-p) : ℝ) : EReal) := by
    rw [← EReal.coe_mul, ← EReal.coe_mul, ← EReal.coe_add]
  rw [hX, hY]
  by_cases hE0 : E = 0
  · obtain ⟨hU0, hI0⟩ := hE hE0
    subst hE0 hU0 hI0
    rw [← EReal.coe_sub, sub_zero, div_zero_nonpos 0 le_rfl, EReal.bot_add, EReal.bot_sub, EReal.neg_bot,
      sub_two_bot, add_two_top]
  · by_cases hU0 : U = 0
    · subst hU0
      rw [← EReal.coe_sub, sub_zero, div_coe_coe 0 E hE0, div_coe_coe E E hE0]
      rcases hI.lt_or_eq with hpos | hz
      · rw [div_zero_pos I hpos, EReal.top_add_coe, EReal.top_sub_coe, EReal.neg_top, sub_two_top, add_two_bot]
      · rw [← hz, div_zero_nonpos 0 le_rfl, EReal.bot_add, EReal.bot_sub, EReal.neg_bot, sub_two_bot, add_two_top]
    · rw [← EReal.coe_sub, div_coe_coe I U hU0, div_coe_coe U E hE0, div_coe_coe (E - U) E hE0]
      simp only [← EReal.coe_mul, ← EReal.coe_add, ← EReal.coe_sub, ← EReal.coe_neg]
      congr 1
      field_simp
      ring

/-! ## The two orders agree -/

theorem costK_eq_costR (l : Fin 92 → ℝ) (ℓ : Fin 92) (sel : Fin 92 → EReal)
    (hsel : ∀ c, sel c = if c = ℓ then c1 else c2)
    (hq2 : 0 ≤ q 2) (hq3 : 0 ≤ q 3) (hg2 : 0 ≤ g 2) (hg3 : 0 ≤ g 3) :
    costK (fun c => (l c : EReal)) sel Q G = costR (fun c => (l c : EReal)) ℓ Q G := by
  obtain ⟨M, hM⟩ := rowMax_real l
  unfold costK costR giouR
  rw [classK_real l M hM sel ℓ hsel, classR_real l M hM ℓ, bboxK_real, bboxR_real, interK_real, unionK_real,
    encK_real, interR_real, unionR_real, encR_real q g hq2 hq3, c5_eq, c2_eq, c1_eq]
  exact combine (bboxRe q g) (pr l M ℓ) (interRe q g) (unionRe q g) (encRe q g)
    (mul_nonneg (le_max_right _ _) (le_max_right _ _)) (enc_zero q g hq2 hq3 hg2 hg3)

end Cert.MatchCost

end
-- ==== Proof.Bridge.lean ====
/-
  The two programs' results agree entry by entry under the precondition.

  A label word w with 0 ≤ w < 92 (as a signed number) is the number of a class: it is not wrapped, the clamp into
  [0, 91] does nothing, and the fused program's comparison of the class number with w is 1 exactly at that class —
  so its table entry is 1 at the class the plain program's gather fetches and 2 elsewhere. With the entries real and
  the box sizes not negative the two orders of the matching cost are equal (`Cert.MatchCost.costK_eq_costR`).
-/
import proofs.«160558_g3908420239659_feedfinal_321_44_alg».proof.Proof.KernelPay
import proofs.«160558_g3908420239659_feedfinal_321_44_alg».proof.Proof.RefClass
import proofs.«160558_g3908420239659_feedfinal_321_44_alg».proof.Proof.SpecLaw

noncomputable section

namespace Cert.Bridge

open Idealize.ShloMosaic Idealize.ShloMosaic.ValueIdx Cert.MatchCost
open Cert.KernelIdeal.Pay (selK)
open Cert.ReferenceIdeal.Plain (classOf clampIdx wrapLabel)

theorem bool_of_ofBool {b : Bool} (h : BitVec.ofBool b = 1#1) : b = true := by
  cases b
  · exact absurd h (by decide)
  · rfl

/-- A label word in range selects its own class on both sides. -/
theorem label_sel (w : BitVec 32) (h0 : IntOp.cmpi .sge w 0#32 = 1#1) (h1 : IntOp.cmpi .slt w 92#32 = 1#1) (c : Fin 92) :
    selK w c = if c = classOf w then c1 else c2 := by
  have hge : (0#32 : BitVec 32).sle w = true := bool_of_ofBool h0
  have hlt : w.slt 92#32 = true := bool_of_ofBool h1
  have hi0 : (0 : Int) ≤ w.toInt := by
    have := hge
    rw [BitVec.sle, decide_eq_true_eq] at this
    simpa using this
  have hi1 : w.toInt < 92 := by
    have := hlt
    rw [BitVec.slt, decide_eq_true_eq] at this
    simpa using this
  have hcond := BitVec.toInt_eq_toNat_cond w
  have hwlt : w.toNat < 2 ^ 32 := w.isLt
  have hnat : w.toInt = (w.toNat : Int) := by
    split at hcond <;> omega
  have hn92 : w.toNat < 92 := by omega
  have hwrap : wrapLabel w = w := by
    unfold wrapLabel
    have hs : IntOp.cmpi .slt w 0#32 = 0#1 := by
      show BitVec.ofBool (w.slt 0#32) = 0#1
      have : w.slt 0#32 = false := by
        rw [BitVec.slt, decide_eq_false_iff_not]
        simp
        omega
      rw [this]; rfl
    rw [hs]
    exact ValueIdx.select_zero _ _
  have hclass : (classOf w).val = w.toNat := by
    unfold classOf clampIdx
    rw [hwrap]
    show min w.toInt.toNat 91 = w.toNat
    omega
  unfold selK
  by_cases hc : c = classOf w
  · rw [if_pos hc]
    have hv : c.val = w.toNat := by rw [hc, hclass]
    have he : BitVec.ofNat 32 c.val = w := by
      apply BitVec.eq_of_toNat_eq
      rw [BitVec.toNat_ofNat, hv]
      exact Nat.mod_eq_of_lt hwlt
    have : IntOp.cmpi .eq (BitVec.ofNat 32 c.val) w = 1#1 := by
      show BitVec.ofBool (BitVec.ofNat 32 c.val == w) = 1#1
      rw [he]; simp
    rw [this]
    exact ValueIdx.select_one _ _
  · rw [if_neg hc]
    have hne : BitVec.ofNat 32 c.val ≠ w := by
      intro he
      apply hc
      apply Fin.ext
      rw [hclass, ← he]
      have : c.val < 92 := c.isLt
      simp [BitVec.toNat_ofNat]
      omega
    have : IntOp.cmpi .eq (BitVec.ofNat 32 c.val) w = 0#1 := by
      show BitVec.ofBool (BitVec.ofNat 32 c.val == w) = 0#1
      have : (BitVec.ofNat 32 c.val == w) = false := by simpa using hne
      rw [this]; rfl
    rw [this]
    exact ValueIdx.select_zero _ _

/-- One entry: the fused program's cost is the plain program's. -/
theorem entry_eq (L : Fin 92 → EReal) (w : BitVec 32) (q g : Fin 4 → EReal)
    (hL : ∀ c, L c = (((L c).toReal : ℝ) : EReal)) (hq : ∀ k, q k = (((q k).toReal : ℝ) : EReal))
    (hg : ∀ k, g k = (((g k).toReal : ℝ) : EReal))
    (h0 : IntOp.cmpi .sge w 0#32 = 1#1) (h1 : IntOp.cmpi .slt w 92#32 = 1#1)
    (hq2 : 0 ≤ q 2) (hq3 : 0 ≤ q 3) (hg2 : 0 ≤ g 2) (hg3 : 0 ≤ g 3) :
    costK L (selK w) q g = costR L (classOf w) q g := by
  have eL : L = fun c => (((L c).toReal : ℝ) : EReal) := funext hL
  have eq : q = fun k => (((q k).toReal : ℝ) : EReal) := funext hq
  have eg : g = fun k => (((g k).toReal : ℝ) : EReal) := funext hg
  have r2 : (0 : ℝ) ≤ (q 2).toReal := EReal.toReal_nonneg hq2
  have r3 : (0 : ℝ) ≤ (q 3).toReal := EReal.toReal_nonneg hq3
  have s2 : (0 : ℝ) ≤ (g 2).toReal := EReal.toReal_nonneg hg2
  have s3 : (0 : ℝ) ≤ (g 3).toReal := EReal.toReal_nonneg hg3
  rw [eL, eq, eg]
  exact costK_eq_costR (fun k => (q k).toReal) (fun k => (g k).toReal) (fun c => (L c).toReal) (classOf w) (selK w)
    (label_sel w h0 h1) r2 r3 s2 s3

end Cert.Bridge

end
-- ==== Proof.LibFiniteAll.lean ====
/-
  "Every entry is finite", read.

  A precondition `jnp.all(jnp.abs(x) < inf)` prints as the `and`-reduction, over all axes and from the bit 1, of the
  comparisons of |x| with the word of +∞.  If the reduction is 1 every comparison is 1; on the extended reals
  max(x, −x) < +∞ excludes both infinities, so every entry is the real number it denotes.  Stated for any shape and
  any list of reduced axes.
-/
import Idealize.ShloMosaic.Lib.ReduceAll
import Idealize.ShloMosaic.Lib.ValueIdx
import Idealize.ShloMosaic.Lib.Pipeline.Value
import Idealize.ShloMosaic.PureOps.Ideal.Laws

noncomputable section

namespace Cert.LibFiniteAll

open Idealize.ShloMosaic

/-- The word 0x7F800000 is +∞. -/
theorem inf_word : Ideal.ofBits .f32 0x7F800000#32 = ⊤ := by simp [Ideal.ofBits, Ideal.ieee]

/-- An extended real whose absolute value compares below +∞ is a real number. -/
theorem real_of_abs_lt (x : EReal) (h : Ideal.cmp .olt (max x (-x)) ⊤ = 1#1) : x = ((x.toReal : ℝ) : EReal) := by
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  have h1 : x ≠ ⊤ := by
    rintro rfl
    exact absurd hlt (by simp)
  have h2 : x ≠ ⊥ := by
    rintro rfl
    exact absurd hlt (by simp)
  exact (EReal.coe_toReal h1 h2).symm

/-- The rank-zero shape has one index. -/
instance : Subsingleton (⟨0, ![]⟩ : Shape).Idx := ⟨fun a b => funext fun d => d.elim0⟩

/-- One argument's test: if "all entries have |x| < +∞" is 1, every entry is a real number. -/
theorem real_of_all {s : Shape} {axes : List (Fin s.rank)} (x : FVec Ideal s .f32)
    (hbc : (⟨0, ![]⟩ : Shape).BroadcastsInDim s (![] : Fin 0 → Fin s.rank)) (red : s.ReducesTo axes ⟨0, ![]⟩)
    (hu : 0 < (⟨0, ![]⟩ : Shape).numel)
    (h : Host.reduce IntOp.andi
          (cmpf .olt (Host.absf x) (broadcastInDim s ![] hbc (constant (F := Ideal) ⟨0, ![]⟩ .f32 0x7F800000#32)))
          (constantI ⟨0, ![]⟩ 1 1#1) red hu ValueIdx.ix0 = 1#1) (i : s.Idx) :
    x i = (((x i).toReal : ℝ) : EReal) := by
  have hi : Ideal.cmp .olt (max (x i) (-(x i)))
      (broadcastInDim s ![] hbc (constant (F := Ideal) ⟨0, ![]⟩ .f32 0x7F800000#32) i) = 1#1 :=
    Host.reduce_andi_all _ _ red hu ValueIdx.ix0 h i
  have hb : broadcastInDim s ![] hbc (constant (F := Ideal) ⟨0, ![]⟩ .f32 0x7F800000#32) i = ⊤ :=
    (broadcastInDim_apply _ hbc _ i (fun a => a.elim0) (fun a => a.elim0)).trans inf_word
  rw [hb] at hi
  exact real_of_abs_lt (x i) hi

end Cert.LibFiniteAll

end
-- ==== Proof.PreFacts.lean ====
/-
  What the precondition says of the argument arrays.

  The precondition is an "and" of seven tests, each an "all" over an array: |x| < +∞ at every entry of the scores,
  the predicted boxes and the target boxes; 0 ≤ label and label < 92 at every target; size ≥ 0 at the last two
  coordinates of every predicted and of every target box. When it is 1 every test is 1 at every entry, so the
  float entries are real numbers, the sizes are not negative, and each label word is the number of a class.
-/
import proofs.«160558_g3908420239659_feedfinal_321_44_alg».proof.Pre_finite_inputs
import proofs.«160558_g3908420239659_feedfinal_321_44_alg».proof.Proof.Gen.Pre_finite_inputs
import Idealize.ShloMosaic.Lib.ReduceAll
import Idealize.ShloMosaic.Lib.Affine
import Idealize.ShloMosaic.Lib.ValueIdx
import Idealize.ShloMosaic.Lib.Pipeline.Value
import proofs.«160558_g3908420239659_feedfinal_321_44_alg».proof.Proof.LibFiniteAll

noncomputable section

namespace Cert.PreFacts

open Cert.Pre_finite_inputs Cert.Pre_finite_inputs.Facts Idealize.ShloMosaic Idealize.ShloMosaic.ValueIdx Cert.LibFiniteAll

variable (a0 : FVec Ideal S16x900x92 .f32) (a1 : FVec Ideal S16x900x4 .f32) (a2 : IVec S1600 32) (a3 : FVec Ideal S1600x4 .f32)

section Helpers
variable {α : Type}

/-- An "all" that is 1 has a 1 at every entry. -/
theorem all_apply {s : Shape} {axes : List (Fin s.rank)} (X : s.Idx → BitVec 1) (red : s.ReducesTo axes ⟨0, ![]⟩)
    (hu : 0 < (⟨0, ![]⟩ : Shape).numel)
    (h : Host.reduce IntOp.andi X (constantI ⟨0, ![]⟩ 1 1#1) red hu ValueIdx.ix0 = 1#1) (i : s.Idx) : X i = 1#1 :=
  Host.reduce_andi_all _ _ red hu ValueIdx.ix0 h i

/-- A scalar spread over a shape reads the scalar everywhere. -/
theorem splat_apply {s : Shape} (hbc : (⟨0, ![]⟩ : Shape).BroadcastsInDim s (![] : Fin 0 → Fin s.rank))
    (x : (⟨0, ![]⟩ : Shape).Idx → α) (i : s.Idx) : broadcastInDim s ![] hbc x i = x ValueIdx.ix0 :=
  broadcastInDim_apply _ hbc _ i ValueIdx.ix0 (fun a => a.elim0)

/-- A comparison "0 ≤ x" that is 1. -/
theorem nonneg_of_oge (x : EReal) (h : Ideal.cmp .oge x (Ideal.ofBits .f32 0x00000000#32) = 1#1) : 0 ≤ x := by
  by_contra hn
  have h0 : Ideal.cmp .oge x (Ideal.ofBits .f32 0x00000000#32) = 0#1 := by
    show BitVec.ofBool (decide (Ideal.ofBits .f32 0x00000000#32 ≤ x)) = 0#1
    rw [Ideal.ofBits_zero_f32, decide_eq_false hn]; rfl
  rw [h0] at h
  exact absurd h (by decide)

end Helpers

/-- What the precondition gives: real entries, labels in range, sizes not negative. -/
theorem decode (h : fn (F := Ideal) a0 a1 a2 a3 = fun _ => 1#1) :
    (∀ i, a0 i = (((a0 i).toReal : ℝ) : EReal)) ∧ (∀ i, a1 i = (((a1 i).toReal : ℝ) : EReal))
    ∧ (∀ i, a3 i = (((a3 i).toReal : ℝ) : EReal))
    ∧ (∀ t : Fin 1600, IntOp.cmpi .sge (a2 (ix1 t)) 0#32 = 1#1 ∧ IntOp.cmpi .slt (a2 (ix1 t)) 92#32 = 1#1)
    ∧ (∀ (b : Fin 16) (q : Fin 900), 0 ≤ a1 (ix3 b q (2 : Fin 4)) ∧ 0 ≤ a1 (ix3 b q (3 : Fin 4)))
    ∧ (∀ t : Fin 1600, 0 ≤ a3 (ix2 t (2 : Fin 4)) ∧ 0 ≤ a3 (ix2 t (3 : Fin 4))) := by
  have h0 := congrFun h ValueIdx.ix0
  unfold fn fn_part1 at h0
  dsimp only at h0
  obtain ⟨h0, hG⟩ := IntOp.andi_eq_one.mp h0
  obtain ⟨h0, hQ⟩ := IntOp.andi_eq_one.mp h0
  obtain ⟨h0, hU⟩ := IntOp.andi_eq_one.mp h0
  obtain ⟨h0, hL⟩ := IntOp.andi_eq_one.mp h0
  obtain ⟨h0, hF3⟩ := IntOp.andi_eq_one.mp h0
  obtain ⟨hF0, hF1⟩ := IntOp.andi_eq_one.mp h0
  refine ⟨real_of_all a0 _ _ _ hF0, real_of_all a1 _ _ _ hF1, real_of_all a3 _ _ _ hF3, fun t => ⟨?_, ?_⟩,
    fun b q => ⟨?_, ?_⟩, fun t => ⟨?_, ?_⟩⟩
  · have e := all_apply _ _ _ hL (ix1 t)
    have hb := splat_apply bcast_S_S1600 (constantI S_ 32 0#32) (ix1 t)
    have e' : IntOp.cmpi .sge (a2 (ix1 t)) (broadcastInDim S1600 ![] bcast_S_S1600 (constantI S_ 32 0#32) (ix1 t)) = 1#1 := e
    rw [hb] at e'
    exact e'
  · have e := all_apply _ _ _ hU (ix1 t)
    have hb := splat_apply bcast_S_S1600 (constantI S_ 32 92#32) (ix1 t)
    have e' : IntOp.cmpi .slt (a2 (ix1 t)) (broadcastInDim S1600 ![] bcast_S_S1600 (constantI S_ 32 92#32) (ix1 t)) = 1#1 := e
    rw [hb] at e'
    exact e'
  · have e := all_apply _ _ _ hQ (ix3 b q (0 : Fin 2))
    have hb := splat_apply bcast_S_S16x900x2 (constant (F := Ideal) S_ .f32 0x00000000#32) (ix3 b q (0 : Fin 2))
    have hs : extractStridedSlice S16x900x2 ![0, 0, 2] a1 slices_S16x900x4_S16x900x2_0_0_2 (ix3 b q (0 : Fin 2)) = a1 (ix3 b q (2 : Fin 4)) :=
      extractStridedSlice_apply _ a1 _ _ _ (fun a => by match a with | ⟨0, _⟩ => exact (Nat.zero_add _).symm | ⟨1, _⟩ => exact (Nat.zero_add _).symm | ⟨2, _⟩ => rfl)
    have e' : Ideal.cmp .oge (extractStridedSlice S16x900x2 ![0, 0, 2] a1 slices_S16x900x4_S16x900x2_0_0_2 (ix3 b q (0 : Fin 2)))
        (broadcastInDim S16x900x2 ![] bcast_S_S16x900x2 (constant (F := Ideal) S_ .f32 0x00000000#32) (ix3 b q (0 : Fin 2))) = 1#1 := e
    rw [hb, hs] at e'
    exact nonneg_of_oge _ e'
  · have e := all_apply _ _ _ hQ (ix3 b q (1 : Fin 2))
    have hb := splat_apply bcast_S_S16x900x2 (constant (F := Ideal) S_ .f32 0x00000000#32) (ix3 b q (1 : Fin 2))
    have hs : extractStridedSlice S16x900x2 ![0, 0, 2] a1 slices_S16x900x4_S16x900x2_0_0_2 (ix3 b q (1 : Fin 2)) = a1 (ix3 b q (3 : Fin 4)) :=
      extractStridedSlice_apply _ a1 _ _ _ (fun a => by match a with | ⟨0, _⟩ => exact (Nat.zero_add _).symm | ⟨1, _⟩ => exact (Nat.zero_add _).symm | ⟨2, _⟩ => rfl)
    have e' : Ideal.cmp .oge (extractStridedSlice S16x900x2 ![0, 0, 2] a1 slices_S16x900x4_S16x900x2_0_0_2 (ix3 b q (1 : Fin 2)))
        (broadcastInDim S16x900x2 ![] bcast_S_S16x900x2 (constant (F := Ideal) S_ .f32 0x00000000#32) (ix3 b q (1 : Fin 2))) = 1#1 := e
    rw [hb, hs] at e'
    exact nonneg_of_oge _ e'
  · have e := all_apply _ _ _ hG (ix2 t (0 : Fin 2))
    have hb := splat_apply bcast_S_S1600x2 (constant (F := Ideal) S_ .f32 0x00000000#32) (ix2 t (0 : Fin 2))
    have hs : extractStridedSlice S1600x2 ![0, 2] a3 slices_S1600x4_S1600x2_0_2 (ix2 t (0 : Fin 2)) = a3 (ix2 t (2 : Fin 4)) :=
      extractStridedSlice_apply _ a3 _ _ _ (fun a => by match a with | ⟨0, _⟩ => exact (Nat.zero_add _).symm | ⟨1, _⟩ => rfl)
    have e' : Ideal.cmp .oge (extractStridedSlice S1600x2 ![0, 2] a3 slices_S1600x4_S1600x2_0_2 (ix2 t (0 : Fin 2)))
        (broadcastInDim S1600x2 ![] bcast_S_S1600x2 (constant (F := Ideal) S_ .f32 0x00000000#32) (ix2 t (0 : Fin 2))) = 1#1 := e
    rw [hb, hs] at e'
    exact nonneg_of_oge _ e'
  · have e := all_apply _ _ _ hG (ix2 t (1 : Fin 2))
    have hb := splat_apply bcast_S_S1600x2 (constant (F := Ideal) S_ .f32 0x00000000#32) (ix2 t (1 : Fin 2))
    have hs : extractStridedSlice S1600x2 ![0, 2] a3 slices_S1600x4_S1600x2_0_2 (ix2 t (1 : Fin 2)) = a3 (ix2 t (3 : Fin 4)) :=
      extractStridedSlice_apply _ a3 _ _ _ (fun a => by match a with | ⟨0, _⟩ => exact (Nat.zero_add _).symm | ⟨1, _⟩ => rfl)
    have e' : Ideal.cmp .oge (extractStridedSlice S1600x2 ![0, 2] a3 slices_S1600x4_S1600x2_0_2 (ix2 t (1 : Fin 2)))
        (broadcastInDim S1600x2 ![] bcast_S_S1600x2 (constant (F := Ideal) S_ .f32 0x00000000#32) (ix2 t (1 : Fin 2))) = 1#1 := e
    rw [hb, hs] at e'
    exact nonneg_of_oge _ e'

end Cert.PreFacts

end
-- ==== Proof.lean ====
/-
  The certificate of the DETR-style matching cost: a program that fuses softmax, class lookup, L1 box distance and
  generalized IoU into one tiled pass, against the plain array program, over the extended reals.

  For 16 × 900 predictions (92 class scores and a box (cx, cy, w, h) each) and 1600 targets (a label and a box), entry
  (b, q, t) of both results is  5 · ‖box_q − box_t‖₁ − softmax(scores_q)[label_t] − 2 · GIoU(box_q, box_t).
  The fused program gets 2 − softmax[label] as a product with a table of ones and twos (the softmax row sums to 1),
  writes the enclosing extent as (w_q + w_t) − (unclipped intersection extent), and folds the −1 of the GIoU into
  that 2; the plain program gathers the probability, clips the enclosing extents at 0 and divides (E − U) by E.

  The two agree where the labels are class numbers (0 ≤ label < 92: outside, the plain program's gather clamps or
  wraps while the table has no matching row) and the box sizes are not negative (with two negative sizes on one axis
  the clipped enclosing extent is 0 and the plain program divides by it, while the unclipped one is not 0); the
  precondition says so, besides every float entry being finite. Degenerate boxes of zero size are kept: there both
  programs reach the same infinity.

  The frames and the plain program's run are the generated ones. The fused program's result is read off its generated
  frame run (what each grid point writes back, the cover of the array by the 25 blocks, the host lines around the
  region), the plain program's off its generated read-at-an-index lemmas, and the two are joined entry by entry by
  the law of `Proof/SpecLaw.lean`.
-/
import proofs.«160558_g3908420239659_feedfinal_321_44_alg».proof.Defs
import proofs.«160558_g3908420239659_feedfinal_321_44_alg».proof.Proof.Gen.Kernel
import proofs.«160558_g3908420239659_feedfinal_321_44_alg».proof.Proof.Gen.Kernel.Skeleton
import proofs.«160558_g3908420239659_feedfinal_321_44_alg».proof.Proof.Gen.Kernel.Launch
import proofs.«160558_g3908420239659_feedfinal_321_44_alg».proof.Proof.Gen.Kernel.Points
import proofs.«160558_g3908420239659_feedfinal_321_44_alg».proof.Proof.Gen.Kernel.Frame
import proofs.«160558_g3908420239659_feedfinal_321_44_alg».proof.Proof.Gen.KernelIdeal
import proofs.«160558_g3908420239659_feedfinal_321_44_alg».proof.Proof.Gen.KernelIdeal.Skeleton
import proofs.«160558_g3908420239659_feedfinal_321_44_alg».proof.Proof.Gen.KernelIdeal.Launch
import proofs.«160558_g3908420239659_feedfinal_321_44_alg».proof.Proof.Gen.KernelIdeal.Points
import proofs.«160558_g3908420239659_feedfinal_321_44_alg».proof.Proof.Gen.KernelIdeal.Frame
import proofs.«160558_g3908420239659_feedfinal_321_44_alg».proof.Proof.Gen.ReferenceIdeal
import proofs.«160558_g3908420239659_feedfinal_321_44_alg».proof.Proof.Gen.Pre_finite_inputs
import proofs.«160558_g3908420239659_feedfinal_321_44_alg».proof.Proof.Gen.ReferenceIdeal.Run
import proofs.«160558_g3908420239659_feedfinal_321_44_alg».proof.Proof.Gen.ReferenceIdeal.Read
import proofs.«160558_g3908420239659_feedfinal_321_44_alg».proof.Proof.KernelValue
import proofs.«160558_g3908420239659_feedfinal_321_44_alg».proof.Proof.RefCost
import proofs.«160558_g3908420239659_feedfinal_321_44_alg».proof.Proof.Bridge
import proofs.«160558_g3908420239659_feedfinal_321_44_alg».proof.Proof.PreFacts
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the same result array: entry (b, q, t) is the matching cost in either order of
    operations, and the two orders agree under the precondition. -/
theorem algebraic : Cert.algebraic_KernelIdeal_ReferenceIdeal := by
  intro m ρ m' ρ' hpre hagree
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v4, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v161_eq, (hagree c).1, (hagree c).2.1, (hagree c).2.2.1, (hagree c).2.2.2]
  obtain ⟨hr0, hr1, hr3, hl, hq, hg⟩ := Cert.PreFacts.decode _ _ _ _ (hpre c)
  funext i
  obtain ⟨b, q, t, rfl⟩ : ∃ (b : Fin 16) (q : Fin 900) (t : Fin 1600), i = ix3 b q t := ⟨i 0, i 1, i 2, eq_ix3 i⟩
  rw [Cert.ReferenceIdeal.Plain.result_apply]
  refine Eq.trans ?_ (Cert.KernelIdeal.Whole.result_apply m c b q t).symm
  exact (Cert.Bridge.entry_eq _ _ _ _ (fun cc => hr0 _) (fun k => hr1 _) (fun k => hr3 _) (hl t).1 (hl t).2
    (hq b q).1 (hq b q).2 (hg t).1 (hg t).2).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
